-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000 : Shape := ⟨1, ![800000]⟩
abbrev S3x96x96 : Shape := ⟨3, ![3, 96, 96]⟩
abbrev S96 : Shape := ⟨1, ![96]⟩
abbrev S96x2 : Shape := ⟨2, ![96, 2]⟩
abbrev S2 : Shape := ⟨1, ![2]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x96x96 : S_.BroadcastsInDim S3x96x96 (![] : Fin 0 → Fin S3x96x96.rank)
  reducesTo_S3x96x96_S_d0_1_2 : S3x96x96.ReducesTo [0, 1, 2] S_
  bcast_S_S96 : S_.BroadcastsInDim S96 (![] : Fin 0 → Fin S96.rank)
  reducesTo_S96_S_d0 : S96.ReducesTo [0] S_
  bcast_S_S96x2 : S_.BroadcastsInDim S96x2 (![] : Fin 0 → Fin S96x2.rank)
  reducesTo_S96x2_S_d0_1 : S96x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg5 : FVec F S3x96x96 .f32) (main_arg6 : FVec F S96 .f32) (main_arg7 : FVec F S96x2 .f32) (main_arg8 : FVec F S2 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S3x96x96 .f32 := Host.absf main_arg5
  let main_cst_6 : FVec F S_ .f32 := constant S_ .f32 0x7F800000#32
  let main_v20 : FVec F S3x96x96 .f32 := broadcastInDim S3x96x96 ![] bcast_S_S3x96x96 main_cst_6
  let main_v21 : IVec S3x96x96 1 := cmpf .olt main_v19 main_v20
  let main_c_7 : IVec S_ 1 := constantI S_ 1 1#1
  let main_v22 : IVec S_ 1 := (fun x v => Host.reduce IntOp.andi x v reducesTo_S3x96x96_S_d0_1_2 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x2 .f32 := Host.absf main_arg7
  let main_cst_10 : FVec F S_ .f32 := constant S_ .f32 0x7F800000#32
  let main_v30 : FVec F S96x2 .f32 := broadcastInDim S96x2 ![] bcast_S_S96x2 main_cst_10
  let main_v31 : IVec S96x2 1 := cmpf .olt main_v29 main_v30
  let main_c_11 : IVec S_ 1 := constantI S_ 1 1#1
  let main_v32 : IVec S_ 1 := (fun x v => Host.reduce IntOp.andi x v reducesTo_S96x2_S_d0_1 h_S_) main_v31 main_c_11
  let main_v33 : IVec S_ 1 := andi main_v28 main_v32
  fn_part2 (F := F) main_arg8 main_v33

def fn {F : FTy → Type} [FloatOps F] (main_arg0 : FVec F S50000x96 .f32) (main_arg1 : IVec S2x800000 32) (main_arg2 : FVec F S800000 .f32) (main_arg3 : FVec F S3x96x96 .f32) (main_arg4 : FVec F S96 .f32) (main_arg5 : FVec F S3x96x96 .f32) (main_arg6 : FVec F S96 .f32) (main_arg7 : FVec F S96x2 .f32) (main_arg8 : FVec F S2 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x96x96 .f32 := Host.absf main_arg3
  let main_cst_2 : FVec F S_ .f32 := constant S_ .f32 0x7F800000#32
  let main_v10 : FVec F S3x96x96 .f32 := broadcastInDim S3x96x96 ![] bcast_S_S3x96x96 main_cst_2
  let main_v11 : IVec S3x96x96 1 := cmpf .olt main_v9 main_v10
  let main_c_3 : IVec S_ 1 := constantI S_ 1 1#1
  let main_v12 : IVec S_ 1 := (fun x v => Host.reduce IntOp.andi x v reducesTo_S3x96x96_S_d0_1_2 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_v13 main_v16
-- ==== Kernel.lean ====
abbrev S50000x96 : Shape := ⟨2, ![50000, 96]⟩
abbrev S2x800000 : Shape := ⟨2, ![2, 800000]⟩
abbrev S800000 : Shape := ⟨1, ![800000]⟩
abbrev S3x96x96 : Shape := ⟨3, ![3, 96, 96]⟩
abbrev S96 : Shape := ⟨1, ![96]⟩
abbrev S96x2 : Shape := ⟨2, ![96, 2]⟩
abbrev S2 : Shape := ⟨1, ![2]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S1x96 : Shape := ⟨2, ![1, 96]⟩
abbrev S5000x96 : Shape := ⟨2, ![5000, 96]⟩
abbrev S1x96x96 : Shape := ⟨3, ![1, 96, 96]⟩
abbrev S96x96 : Shape := ⟨2, ![96, 96]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 136
  | .vmem => 22
  | .smem => 0
  | _ => 0

abbrev hbmTy0_0 (i : Nat) : BufTy := match i % 128 with
  | 0 => ⟨S50000x96, .f32⟩
  | 1 => ⟨S2x800000, .i32⟩
  | 2 => ⟨S800000, .f32⟩
  | 3 => ⟨S3x96x96, .f32⟩
  | 4 => ⟨S96, .f32⟩
  | 5 => ⟨S3x96x96, .f32⟩
  | 6 => ⟨S96, .f32⟩
  | 7 => ⟨S96x2, .f32⟩
  | 8 => ⟨S2, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .i1⟩
  | 20 => ⟨S_, .f32⟩
  | 21 => ⟨S50000, .f32⟩
  | 22 => ⟨S50000, .f32⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .f32⟩
  | 38 => ⟨S800000, .f32⟩
  | 39 => ⟨S800000, .f32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S800000x1, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x96, .f32⟩
  | 61 => ⟨S800000x96, .f32⟩
  | 62 => ⟨S800000x96, .f32⟩
  | 63 => ⟨S_, .f32⟩
  | 64 => ⟨S50000x96, .f32⟩
  | 65 => ⟨S800000x1, .i32⟩
  | 66 => ⟨S50000x96, .f32⟩
  | 67 => ⟨S_, .f32⟩
  | 68 => ⟨S50000x96, .f32⟩
  | 69 => ⟨S50000x96, .f32⟩
  | 70 => ⟨S50000x96, .f32⟩
  | 71 => ⟨S800000x1, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x96, .f32⟩
  | 81 => ⟨S800000x96, .f32⟩
  | 82 => ⟨S800000x96, .f32⟩
  | 83 => ⟨S_, .f32⟩
  | 84 => ⟨S50000x96, .f32⟩
  | 85 => ⟨S800000x1, .i32⟩
  | 86 => ⟨S50000x96, .f32⟩
  | 87 => ⟨S_, .f32⟩
  | 88 => ⟨S50000x96, .f32⟩
  | 89 => ⟨S50000x96, .f32⟩
  | 90 => ⟨S50000x96, .f32⟩
  | 91 => ⟨S1x96, .f32⟩
  | 92 => ⟨S50000x96, .f32⟩
  | 93 => ⟨S800000x1, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x96, .f32⟩
  | 103 => ⟨S800000x96, .f32⟩
  | 104 => ⟨S800000x96, .f32⟩
  | 105 => ⟨S_, .f32⟩
  | 106 => ⟨S50000x96, .f32⟩
  | 107 => ⟨S800000x1, .i32⟩
  | 108 => ⟨S50000x96, .f32⟩
  | 109 => ⟨S_, .f32⟩
  | 110 => ⟨S50000x96, .f32⟩
  | 111 => ⟨S50000x96, .f32⟩
  | 112 => ⟨S50000x96, .f32⟩
  | 113 => ⟨S800000x1, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x96, .f32⟩
  | 123 => ⟨S800000x96, .f32⟩
  | 124 => ⟨S800000x96, .f32⟩
  | 125 => ⟨S_, .f32⟩
  | 126 => ⟨S50000x96, .f32⟩
  | 127 => ⟨S800000x1, .i32⟩
  | _ => ⟨S50000x96, .f32⟩

abbrev hbmTy0_1 (i : Nat) : BufTy := match i % 128 with
  | 0 => ⟨S50000x96, .f32⟩
  | 1 => ⟨S_, .f32⟩
  | 2 => ⟨S50000x96, .f32⟩
  | 3 => ⟨S50000x96, .f32⟩
  | 4 => ⟨S50000x96, .f32⟩
  | 5 => ⟨S1x96, .f32⟩
  | 6 => ⟨S1x2, .f32⟩
  | 7 => ⟨S50000x2, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S3x96x96, .f32⟩
  | .local _ .vmem, ⟨7, _⟩ => ⟨S1x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S3x96x96, .f32⟩
  | .local _ .vmem, ⟨17, _⟩ => ⟨S1x96, .f32⟩
  | .local _ .vmem, ⟨18, _⟩ => ⟨S96x2, .f32⟩
  | .local _ .vmem, ⟨19, _⟩ => ⟨S1x2, .f32⟩
  | .local _ .vmem, ⟨20, _⟩ => ⟨S5000x2, .f32⟩
  | .local _ .vmem, ⟨21, _⟩ => ⟨S5000x2, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_c_12 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_14 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_c_16 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_18 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_19 : Ref sig .tc := ⟨.hbm, 114, rfl⟩
abbrev main_v82 : Ref sig .tc := ⟨.hbm, 115, rfl⟩
abbrev main_v83 : Ref sig .tc := ⟨.hbm, 116, rfl⟩
abbrev main_c_20 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_21 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_22 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S3x96x96_S1x96x96_0_0_0 : ∀ a, (![0, 0, 0] : Fin 3 → Nat) a + S1x96x96.size a ≤ S3x96x96.size a
  h_S1x96x96 : 0 < S1x96x96.numel
  shapeCasts_S1x96x96_S96x96 : S1x96x96.ShapeCasts S96x96
  inb_S3x96x96_S1x96x96_1_0_0 : ∀ a, (![1, 0, 0] : Fin 3 → Nat) a + S1x96x96.size a ≤ S3x96x96.size a
  inb_S3x96x96_S1x96x96_2_0_0 : ∀ a, (![2, 0, 0] : Fin 3 → Nat) a + S1x96x96.size a ≤ S3x96x96.size a
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  shapeCasts_S2_S1x2 : S2.ShapeCasts S1x2
  inb_S96x2_S96x2_0_0 : ∀ a, (![0, 0] : Fin 2 → Nat) a + S96x2.size a ≤ S96x2.size a
  h_S96x2 : 0 < S96x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S5000x96_S96x2_S5000x2_1_0_0_1_n_n_wf : DotDims.WF S5000x96 S96x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x96x96.size a ≤ S3x96x96.size a
  hwx0_3 : ∀ i : grid0.Coords, EltTy.bits .f32 = 32 ∨ (Rect.block (s := S3x96x96) S3x96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x96x96.size a ≤ S3x96x96.size a
  hwx1_3 : ∀ i : grid1.Coords, EltTy.bits .f32 = 32 ∨ (Rect.block (s := S3x96x96) S3x96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96x2.size a ≤ S96x2.size a
  hwx1_5 : ∀ i : grid1.Coords, EltTy.bits .f32 = 32 ∨ (Rect.block (s := S96x2) S96x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S50000x2.size a
  hwx1_7 : ∀ i : grid1.Coords, EltTy.bits .f32 = 32 ∨ (Rect.block (s := S50000x2) S5000x2.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x2_S5000x2_1_0_0_1_n_n : DotDims S5000x96 S96x2 S5000x2 where
  lhsContracting := [1]
  rhsContracting := [0]
  lhsNonContracting := [0]
  rhsNonContracting := [1]
  lhsBatch := []
  rhsBatch := []
  wf := dot_S5000x96_S96x2_S5000x2_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v62) S5000x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v63) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v64) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v64) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v80) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v96) S5000x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S3x96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v97) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S96x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v98) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v99) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000 : Shape := ⟨1, ![800000]⟩
abbrev S3x96x96 : Shape := ⟨3, ![3, 96, 96]⟩
abbrev S96 : Shape := ⟨1, ![96]⟩
abbrev S96x2 : Shape := ⟨2, ![96, 2]⟩
abbrev S2 : Shape := ⟨1, ![2]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x96x96 : Shape := ⟨3, ![1, 96, 96]⟩
abbrev S96x96 : Shape := ⟨2, ![96, 96]⟩
abbrev S800000x96 : Shape := ⟨2, ![800000, 96]⟩
abbrev S1x96 : Shape := ⟨2, ![1, 96]⟩
abbrev S50000x2 : Shape := ⟨2, ![50000, 2]⟩
abbrev S1x2 : Shape := ⟨2, ![1, 2]⟩

abbrev nBuf : Space → Nat
  | .hbm => 177
  | .vmem => 0
  | .smem => 0
  | _ => 0

abbrev hbmTy0_0 (i : Nat) : BufTy := match i % 128 with
  | 0 => ⟨S50000x96, .f32⟩
  | 1 => ⟨S2x800000, .i32⟩
  | 2 => ⟨S800000, .f32⟩
  | 3 => ⟨S3x96x96, .f32⟩
  | 4 => ⟨S96, .f32⟩
  | 5 => ⟨S3x96x96, .f32⟩
  | 6 => ⟨S96, .f32⟩
  | 7 => ⟨S96x2, .f32⟩
  | 8 => ⟨S2, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .i1⟩
  | 20 => ⟨S_, .f32⟩
  | 21 => ⟨S50000, .f32⟩
  | 22 => ⟨S50000, .f32⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .f32⟩
  | 38 => ⟨S800000, .f32⟩
  | 39 => ⟨S800000, .f32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S1x96x96, .f32⟩
  | 52 => ⟨S96x96, .f32⟩
  | 53 => ⟨S50000x96, .f32⟩
  | 54 => ⟨S800000x1, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x96, .f32⟩
  | 64 => ⟨S800000x96, .f32⟩
  | 65 => ⟨S800000x96, .f32⟩
  | 66 => ⟨S_, .f32⟩
  | 67 => ⟨S50000x96, .f32⟩
  | 68 => ⟨S800000x1, .i32⟩
  | 69 => ⟨S50000x96, .f32⟩
  | 70 => ⟨S_, .f32⟩
  | 71 => ⟨S50000x96, .f32⟩
  | 72 => ⟨S50000x96, .f32⟩
  | 73 => ⟨S50000x96, .f32⟩
  | 74 => ⟨S1x96x96, .f32⟩
  | 75 => ⟨S96x96, .f32⟩
  | 76 => ⟨S50000x96, .f32⟩
  | 77 => ⟨S50000x96, .f32⟩
  | 78 => ⟨S800000x1, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x96, .f32⟩
  | 88 => ⟨S800000x96, .f32⟩
  | 89 => ⟨S800000x96, .f32⟩
  | 90 => ⟨S_, .f32⟩
  | 91 => ⟨S50000x96, .f32⟩
  | 92 => ⟨S800000x1, .i32⟩
  | 93 => ⟨S50000x96, .f32⟩
  | 94 => ⟨S_, .f32⟩
  | 95 => ⟨S50000x96, .f32⟩
  | 96 => ⟨S50000x96, .f32⟩
  | 97 => ⟨S50000x96, .f32⟩
  | 98 => ⟨S_, .f32⟩
  | 99 => ⟨S50000x96, .f32⟩
  | 100 => ⟨S50000x96, .f32⟩
  | 101 => ⟨S50000x96, .f32⟩
  | 102 => ⟨S1x96x96, .f32⟩
  | 103 => ⟨S96x96, .f32⟩
  | 104 => ⟨S50000x96, .f32⟩
  | 105 => ⟨S50000x96, .f32⟩
  | 106 => ⟨S1x96, .f32⟩
  | 107 => ⟨S50000x96, .f32⟩
  | 108 => ⟨S50000x96, .f32⟩
  | 109 => ⟨S_, .f32⟩
  | 110 => ⟨S50000x96, .f32⟩
  | 111 => ⟨S50000x96, .f32⟩
  | 112 => ⟨S1x96x96, .f32⟩
  | 113 => ⟨S96x96, .f32⟩
  | 114 => ⟨S50000x96, .f32⟩
  | 115 => ⟨S800000x1, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x96, .f32⟩
  | 125 => ⟨S800000x96, .f32⟩
  | 126 => ⟨S800000x96, .f32⟩
  | 127 => ⟨S_, .f32⟩
  | _ => ⟨S50000x96, .f32⟩

abbrev hbmTy0_1 (i : Nat) : BufTy := match i % 128 with
  | 0 => ⟨S50000x96, .f32⟩
  | 1 => ⟨S800000x1, .i32⟩
  | 2 => ⟨S50000x96, .f32⟩
  | 3 => ⟨S_, .f32⟩
  | 4 => ⟨S50000x96, .f32⟩
  | 5 => ⟨S50000x96, .f32⟩
  | 6 => ⟨S50000x96, .f32⟩
  | 7 => ⟨S1x96x96, .f32⟩
  | 8 => ⟨S96x96, .f32⟩
  | 9 => ⟨S50000x96, .f32⟩
  | 10 => ⟨S50000x96, .f32⟩
  | 11 => ⟨S800000x1, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x96, .f32⟩
  | 21 => ⟨S800000x96, .f32⟩
  | 22 => ⟨S800000x96, .f32⟩
  | 23 => ⟨S_, .f32⟩
  | 24 => ⟨S50000x96, .f32⟩
  | 25 => ⟨S800000x1, .i32⟩
  | 26 => ⟨S50000x96, .f32⟩
  | 27 => ⟨S_, .f32⟩
  | 28 => ⟨S50000x96, .f32⟩
  | 29 => ⟨S50000x96, .f32⟩
  | 30 => ⟨S50000x96, .f32⟩
  | 31 => ⟨S_, .f32⟩
  | 32 => ⟨S50000x96, .f32⟩
  | 33 => ⟨S50000x96, .f32⟩
  | 34 => ⟨S50000x96, .f32⟩
  | 35 => ⟨S1x96x96, .f32⟩
  | 36 => ⟨S96x96, .f32⟩
  | 37 => ⟨S50000x96, .f32⟩
  | 38 => ⟨S50000x96, .f32⟩
  | 39 => ⟨S1x96, .f32⟩
  | 40 => ⟨S50000x96, .f32⟩
  | 41 => ⟨S50000x96, .f32⟩
  | 42 => ⟨S_, .f32⟩
  | 43 => ⟨S50000x96, .f32⟩
  | 44 => ⟨S50000x96, .f32⟩
  | 45 => ⟨S50000x2, .f32⟩
  | 46 => ⟨S1x2, .f32⟩
  | 47 => ⟨S50000x2, .f32⟩
  | 48 => ⟨S50000x2, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_call1_cst : Ref sig .tc := ⟨.hbm, 109, rfl⟩
abbrev main_call1_v0 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_16 : Ref sig .tc := ⟨.hbm, 116, rfl⟩
abbrev main_v85 : Ref sig .tc := ⟨.hbm, 117, rfl⟩
abbrev main_v86 : Ref sig .tc := ⟨.hbm, 118, rfl⟩
abbrev main_c_17 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_20 : Ref sig .tc := ⟨.hbm, 140, rfl⟩
abbrev main_v105 : Ref sig .tc := ⟨.hbm, 141, rfl⟩
abbrev main_v106 : Ref sig .tc := ⟨.hbm, 142, rfl⟩
abbrev main_c_21 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_22 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_23 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_24 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_call2_cst : Ref sig .tc := ⟨.hbm, 170, rfl⟩
abbrev main_call2_v0 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  slices_S3x96x96_S1x96x96_0_0_0 : S3x96x96.Slices ![0, 0, 0] S1x96x96
  shapeCasts_S1x96x96_S96x96 : S1x96x96.ShapeCasts S96x96
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  slices_S3x96x96_S1x96x96_1_0_0 : S3x96x96.Slices ![1, 0, 0] S1x96x96
  slices_S3x96x96_S1x96x96_2_0_0 : S3x96x96.Slices ![2, 0, 0] S1x96x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x2_S50000x2_1_0_0_1_n_n_wf : DotDims.WF S50000x96 S96x2 S50000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x2_S50000x2_1_0_0_1_n_n : DotDims S50000x96 S96x2 S50000x2 where
  lhsContracting := [1]
  rhsContracting := [0]
  lhsNonContracting := [0]
  rhsNonContracting := [1]
  lhsBatch := []
  rhsBatch := []
  wf := dot_S50000x96_S96x2_S50000x2_1_0_0_1_n_n_wf

class Facts : Prop extends Facts₀ where

variable [Facts]
-- ==== Proof.RunValue.lean ====
/-
  The kernel program's run, with its result named.

  The program is two kernel regions among stretches of host operations.  Every weakly fair execution terminates with
  every unscoped buffer of a core at the last segment boundary's contents; read at the result buffer this is what
  the second region's write-backs leave, and read at the argument buffers it is the launch contents.
-/
import proofs.«146737_j35888746725726_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v99) = W6 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v99 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunValue

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibLeakyDense.lean ====
/-
  LEAKY-RECTIFIED DENSE STAGES, READ AT AN INDEX, generic in the extents.

  Over the extended reals, with  leaky v = v if v ≥ 0 else 0.2·v  (the slope the f32 word 0x3E4CCCCD, the zero the
  f32 word 0, both kept as words: the two spellings below carry the same words, so neither is ever evaluated):

  * a bias vector [B] laid as the row [1, B] and spread over [A, B] reads b(c) at (r, c) — in a kernel's spelling
    (shape cast, then vector broadcast) and in the host's (two broadcast_in_dim);
  * a scalar splat over any shape is the host's broadcast of a rank-0 constant;
  * x + bias row, then leaky, at (r, c) is  leaky (x(r, c) + b(c))  in both spellings;
  * a plain product whose operands pass a narrowing format change (the identity on the extended reals) is the host's
    dot_general of the operands, entry by entry:  Σ_k l(r, k) · w(k, c).

  * the two-layer head (leaky (z · W₂ + b₂)) · W₃ + b₃ at (r, c) as one double sum, in both spellings.

  Nothing here depends on a program.
-/
import Idealize.ShloMosaic.Lib.ValueIdx
import Idealize.ShloMosaic.Lib.ValueLayout
import Idealize.ShloMosaic.Lib.Pipeline.Value
import Idealize.ShloMosaic.PureOps.Ideal.Laws
import proofs.«146737_j35888746725726_2_alg».proof.Proof.LibPlainDot

noncomputable section

open scoped BigOperators

namespace Cert.Lib.LeakyDense

open Idealize.ShloMosaic Idealize.ShloMosaic.ValueIdx Cert.Lib.PlainDot

variable {A K B : Nat}

/-- leaky v = v where v ≥ 0, 0.2·v elsewhere: the comparison, the product and the choice as one scalar function
    of the extended real v, the zero and the slope as their f32 words. -/
def leaky (v : Ideal .f32) : Ideal .f32 :=
  Scalar.select (FloatOps.cmpf .oge v (FloatOps.ofBits .f32 0x00000000#32)) v
    (FloatOps.mulf (FloatOps.ofBits .f32 0x3E4CCCCD#32) v)

/-! ## The bias row -/

/-- A kernel's spelling: the vector [B] cast to [1, B] and broadcast over the rows of [A, B] reads b(c) at (r, c). -/
theorem kernelRow_apply {α : Type} (b : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (r : Fin A) (c : Fin B) :
    broadcastTo ⟨2, ![A, B]⟩ (shapeCast ⟨2, ![1, B]⟩ b h1) h2 (ix2 r c) = b (ix1 c) :=
  (broadcastTo_1b_ab_apply _ h2 r c).trans (shapeCast_a_1a_apply b h1 0 c)

/-- The host's spelling: the vector [B] broadcast along axis 1 into [1, B], then over [A, B], reads b(c) at (r, c). -/
theorem hostRow_apply {α : Type} (b : (⟨1, ![B]⟩ : Shape).Idx → α)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (r : Fin A) (c : Fin B) :
    broadcastInDim ⟨2, ![A, B]⟩ (![0, 1] : Fin 2 → Fin 2) g2 (broadcastInDim ⟨2, ![1, B]⟩ (![1] : Fin 1 → Fin 2) g1 b) (ix2 r c) = b (ix1 c) := by
  refine (broadcastInDim_apply _ g2 _ (ix2 r c) (ix2 (0 : Fin 1) c) fun a => ?_).trans
    (broadcastInDim_apply _ g1 b (ix2 (0 : Fin 1) c) (ix1 c) fun a => ?_)
  · match a with
    | ⟨0, _⟩ => show (0 : Nat) = if (1 : Nat) = 1 then 0 else r.val; rw [if_pos rfl]
    | ⟨1, _⟩ =>
      show c.val = if B = 1 then 0 else c.val
      split
      · have := c.isLt; omega
      · rfl
  · match a with
    | ⟨0, _⟩ =>
      show c.val = if B = 1 then 0 else c.val
      split
      · have := c.isLt; omega
      · rfl

/-! ## Bias, then leaky -/

/-- A kernel's spelling of  leaky (x + bias row)  at (r, c): the zero and the slope splat from scalars. -/
theorem kernelBiasLeaky_apply (x : FVec Ideal ⟨2, ![A, B]⟩ .f32) (b : FVec Ideal ⟨1, ![B]⟩ .f32)
    (h1 : (⟨1, ![B]⟩ : Shape).ShapeCasts ⟨2, ![1, B]⟩) (h2 : (⟨2, ![1, B]⟩ : Shape).Broadcasts ⟨2, ![A, B]⟩)
    (r : Fin A) (c : Fin B) :
    select (cmpf .oge (addf x (broadcastTo ⟨2, ![A, B]⟩ (shapeCast ⟨2, ![1, B]⟩ b h1) h2))
        (broadcast ⟨2, ![A, B]⟩ (Scalar.ofBits (F := Ideal) .f32 0x00000000#32)))
      (addf x (broadcastTo ⟨2, ![A, B]⟩ (shapeCast ⟨2, ![1, B]⟩ b h1) h2))
      (mulf (broadcast ⟨2, ![A, B]⟩ (Scalar.ofBits (F := Ideal) .f32 0x3E4CCCCD#32))
        (addf x (broadcastTo ⟨2, ![A, B]⟩ (shapeCast ⟨2, ![1, B]⟩ b h1) h2))) (ix2 r c)
      = leaky (x (ix2 r c) + b (ix1 c)) := by
  have e := kernelRow_apply (A := A) b h1 h2 r c
  show Scalar.select (FloatOps.cmpf .oge (x (ix2 r c) + _) _) (x (ix2 r c) + _) (FloatOps.mulf _ (x (ix2 r c) + _)) = _
  rw [e]
  rfl

/-- The host's spelling of  leaky (x + bias row)  at (r, c): the zero and the slope broadcast from rank-0 constants. -/
theorem hostBiasLeaky_apply (x : FVec Ideal ⟨2, ![A, B]⟩ .f32) (b : FVec Ideal ⟨1, ![B]⟩ .f32)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (g0 : (⟨0, ![]⟩ : Shape).BroadcastsInDim ⟨2, ![A, B]⟩ (![] : Fin 0 → Fin 2))
    (r : Fin A) (c : Fin B) :
    select (cmpf .oge (addf x (broadcastInDim ⟨2, ![A, B]⟩ (![0, 1] : Fin 2 → Fin 2) g2 (broadcastInDim ⟨2, ![1, B]⟩ (![1] : Fin 1 → Fin 2) g1 b)))
        (broadcastInDim ⟨2, ![A, B]⟩ (![] : Fin 0 → Fin 2) g0 (constant (F := Ideal) ⟨0, ![]⟩ .f32 0x00000000#32)))
      (addf x (broadcastInDim ⟨2, ![A, B]⟩ (![0, 1] : Fin 2 → Fin 2) g2 (broadcastInDim ⟨2, ![1, B]⟩ (![1] : Fin 1 → Fin 2) g1 b)))
      (mulf (broadcastInDim ⟨2, ![A, B]⟩ (![] : Fin 0 → Fin 2) g0 (constant (F := Ideal) ⟨0, ![]⟩ .f32 0x3E4CCCCD#32))
        (addf x (broadcastInDim ⟨2, ![A, B]⟩ (![0, 1] : Fin 2 → Fin 2) g2 (broadcastInDim ⟨2, ![1, B]⟩ (![1] : Fin 1 → Fin 2) g1 b)))) (ix2 r c)
      = leaky (x (ix2 r c) + b (ix1 c)) := by
  have e := hostRow_apply (A := A) b g1 g2 r c
  show Scalar.select (FloatOps.cmpf .oge (x (ix2 r c) + _) _) (x (ix2 r c) + _) (FloatOps.mulf _ (x (ix2 r c) + _)) = _
  rw [e]
  rfl

/-! ## The plain product through a narrowing format change -/

/-- A kernel's matmul into the zero accumulator of operands narrowed to another float format reads, at (r, c), the
    textbook sum of the operands themselves: the format change is the identity on the extended reals. -/
theorem kernelDot_apply {ψ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (hb : ψ.bits < FTy.f32.bits)
    (l : FVec Ideal ⟨2, ![A, K]⟩ .f32) (w : FVec Ideal ⟨2, ![K, B]⟩ .f32) (r : Fin A) (c : Fin B) :
    matmul d none (truncf ψ l hb) (truncf ψ w hb) (constant ⟨2, ![A, B]⟩ .f32 0x00000000#32) (ix2 r c)
      = ∑ k : Fin K, l (ix2 r k) * w (ix2 k c) := by
  obtain rfl := eq_plain d h1 h2 h3 h4 h5 h6
  exact matmul_zero_plain_apply none (truncf ψ l hb) (truncf ψ w hb) (ix2 r c)

/-- The host's dot_general of a plain product reads, at (r, c), the same sum. -/
theorem hostDot_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![A, K]⟩ .f32) (w : FVec Ideal ⟨2, ![K, B]⟩ .f32) (r : Fin A) (c : Fin B) :
    Host.dotGeneral d none l w (ix2 r c) = ∑ k : Fin K, l (ix2 r k) * w (ix2 k c) := by
  obtain rfl := eq_plain d h1 h2 h3 h4 h5 h6
  exact dotGeneral_plain_apply none l w (ix2 r c)

/-! ## Offsets of a whole-block access -/

theorem offs2 : (![0, 0] : Fin 2 → Nat) = fun _ => 0 := funext fun a => by fin_cases a <;> rfl
theorem offs1 : (![0] : Fin 1 → Nat) = fun _ => 0 := funext fun a => by fin_cases a; rfl

/-! ## A two-layer head:  (leaky (z · W₂ + b₂)) · W₃ + b₃ -/

section Head
variable {K₁ K₂ : Nat}

/-- A kernel's spelling of the head — both products into zero accumulators with operands narrowed to another float
    format, both biases cast to rows and broadcast, the zero and the slope splat — read at (r, c). -/
theorem kernelHead_apply {ψ : FTy} (d₂ : DotDims ⟨2, ![A, K₁]⟩ ⟨2, ![K₁, K₂]⟩ ⟨2, ![A, K₂]⟩) (p1 : d₂.lhsContracting = [1]) (p2 : d₂.rhsContracting = [0]) (p3 : d₂.lhsNonContracting = [0])
    (p4 : d₂.rhsNonContracting = [1]) (p5 : d₂.lhsBatch = []) (p6 : d₂.rhsBatch = [])
    (d₃ : DotDims ⟨2, ![A, K₂]⟩ ⟨2, ![K₂, B]⟩ ⟨2, ![A, B]⟩) (q1 : d₃.lhsContracting = [1]) (q2 : d₃.rhsContracting = [0]) (q3 : d₃.lhsNonContracting = [0])
    (q4 : d₃.rhsNonContracting = [1]) (q5 : d₃.lhsBatch = []) (q6 : d₃.rhsBatch = [])
    (hb : ψ.bits < FTy.f32.bits)
    (z : FVec Ideal ⟨2, ![A, K₁]⟩ .f32) (w₂ : FVec Ideal ⟨2, ![K₁, K₂]⟩ .f32) (b₂ : FVec Ideal ⟨1, ![K₂]⟩ .f32)
    (w₃ : FVec Ideal ⟨2, ![K₂, B]⟩ .f32) (b₃ : FVec Ideal ⟨1, ![B]⟩ .f32)
    (h0 : (⟨2, ![A, K₁]⟩ : Shape).ShapeCasts ⟨2, ![A, K₁]⟩)
    (h1 : (⟨1, ![K₂]⟩ : Shape).ShapeCasts ⟨2, ![1, K₂]⟩) (h2 : (⟨2, ![1, K₂]⟩ : Shape).Broadcasts ⟨2, ![A, K₂]⟩)
    (h3 : (⟨1, ![B]⟩ : Shape).ShapeCasts ⟨2, ![1, B]⟩) (h4 : (⟨2, ![1, B]⟩ : Shape).Broadcasts ⟨2, ![A, B]⟩)
    (r : Fin A) (c : Fin B) :
    (addf (matmul d₃ none (truncf ψ (select (cmpf .oge (addf (matmul d₂ none (truncf ψ (shapeCast ⟨2, ![A, K₁]⟩ z h0) hb) (truncf ψ w₂ hb) (constant ⟨2, ![A, K₂]⟩ .f32 0x00000000#32)) (broadcastTo ⟨2, ![A, K₂]⟩ (shapeCast ⟨2, ![1, K₂]⟩ b₂ h1) h2)) (broadcast ⟨2, ![A, K₂]⟩ (Scalar.ofBits (F := Ideal) .f32 0x00000000#32))) (addf (matmul d₂ none (truncf ψ (shapeCast ⟨2, ![A, K₁]⟩ z h0) hb) (truncf ψ w₂ hb) (constant ⟨2, ![A, K₂]⟩ .f32 0x00000000#32)) (broadcastTo ⟨2, ![A, K₂]⟩ (shapeCast ⟨2, ![1, K₂]⟩ b₂ h1) h2)) (mulf (broadcast ⟨2, ![A, K₂]⟩ (Scalar.ofBits (F := Ideal) .f32 0x3E4CCCCD#32)) (addf (matmul d₂ none (truncf ψ (shapeCast ⟨2, ![A, K₁]⟩ z h0) hb) (truncf ψ w₂ hb) (constant ⟨2, ![A, K₂]⟩ .f32 0x00000000#32)) (broadcastTo ⟨2, ![A, K₂]⟩ (shapeCast ⟨2, ![1, K₂]⟩ b₂ h1) h2)))) hb) (truncf ψ w₃ hb) (constant ⟨2, ![A, B]⟩ .f32 0x00000000#32)) (broadcastTo ⟨2, ![A, B]⟩ (shapeCast ⟨2, ![1, B]⟩ b₃ h3) h4)) (ix2 r c)
      = (∑ k : Fin K₂, leaky ((∑ j : Fin K₁, z (ix2 r j) * w₂ (ix2 j k)) + b₂ (ix1 k)) * w₃ (ix2 k c)) + b₃ (ix1 c) := by
  show (matmul d₃ none _ _ _) (ix2 r c) + (broadcastTo ⟨2, ![A, B]⟩ (shapeCast ⟨2, ![1, B]⟩ b₃ h3) h4) (ix2 r c) = _
  rw [kernelRow_apply (A := A) b₃ h3 h4 r c, kernelDot_apply d₃ q1 q2 q3 q4 q5 q6 hb _ w₃ r c]
  refine congrArg (· + b₃ (ix1 c)) (Finset.sum_congr rfl fun k _ => congrArg (· * w₃ (ix2 k c)) ?_)
  rw [kernelBiasLeaky_apply (A := A) _ b₂ h1 h2 r k, kernelDot_apply d₂ p1 p2 p3 p4 p5 p6 hb _ w₂ r k, shapeCast_self]

/-- The host's spelling of the head — two dot_general, each bias broadcast twice, the zero and the slope broadcast
    from rank-0 constants — read at (r, c): the same double sum. -/
theorem hostHead_apply (d₂ : DotDims ⟨2, ![A, K₁]⟩ ⟨2, ![K₁, K₂]⟩ ⟨2, ![A, K₂]⟩) (p1 : d₂.lhsContracting = [1]) (p2 : d₂.rhsContracting = [0]) (p3 : d₂.lhsNonContracting = [0])
    (p4 : d₂.rhsNonContracting = [1]) (p5 : d₂.lhsBatch = []) (p6 : d₂.rhsBatch = [])
    (d₃ : DotDims ⟨2, ![A, K₂]⟩ ⟨2, ![K₂, B]⟩ ⟨2, ![A, B]⟩) (q1 : d₃.lhsContracting = [1]) (q2 : d₃.rhsContracting = [0]) (q3 : d₃.lhsNonContracting = [0])
    (q4 : d₃.rhsNonContracting = [1]) (q5 : d₃.lhsBatch = []) (q6 : d₃.rhsBatch = [])
    (z : FVec Ideal ⟨2, ![A, K₁]⟩ .f32) (w₂ : FVec Ideal ⟨2, ![K₁, K₂]⟩ .f32) (b₂ : FVec Ideal ⟨1, ![K₂]⟩ .f32)
    (w₃ : FVec Ideal ⟨2, ![K₂, B]⟩ .f32) (b₃ : FVec Ideal ⟨1, ![B]⟩ .f32)
    (g1 : (⟨1, ![K₂]⟩ : Shape).BroadcastsInDim ⟨2, ![1, K₂]⟩ (![1] : Fin 1 → Fin 2))
    (g2 : (⟨2, ![1, K₂]⟩ : Shape).BroadcastsInDim ⟨2, ![A, K₂]⟩ (![0, 1] : Fin 2 → Fin 2))
    (g0 : (⟨0, ![]⟩ : Shape).BroadcastsInDim ⟨2, ![A, K₂]⟩ (![] : Fin 0 → Fin 2))
    (g3 : (⟨1, ![B]⟩ : Shape).BroadcastsInDim ⟨2, ![1, B]⟩ (![1] : Fin 1 → Fin 2))
    (g4 : (⟨2, ![1, B]⟩ : Shape).BroadcastsInDim ⟨2, ![A, B]⟩ (![0, 1] : Fin 2 → Fin 2))
    (r : Fin A) (c : Fin B) :
    (addf (Host.dotGeneral d₃ none (select (cmpf .oge (addf (Host.dotGeneral d₂ none z w₂) (broadcastInDim ⟨2, ![A, K₂]⟩ (![0, 1] : Fin 2 → Fin 2) g2 (broadcastInDim ⟨2, ![1, K₂]⟩ (![1] : Fin 1 → Fin 2) g1 b₂))) (broadcastInDim ⟨2, ![A, K₂]⟩ (![] : Fin 0 → Fin 2) g0 (constant (F := Ideal) ⟨0, ![]⟩ .f32 0x00000000#32))) (addf (Host.dotGeneral d₂ none z w₂) (broadcastInDim ⟨2, ![A, K₂]⟩ (![0, 1] : Fin 2 → Fin 2) g2 (broadcastInDim ⟨2, ![1, K₂]⟩ (![1] : Fin 1 → Fin 2) g1 b₂))) (mulf (broadcastInDim ⟨2, ![A, K₂]⟩ (![] : Fin 0 → Fin 2) g0 (constant (F := Ideal) ⟨0, ![]⟩ .f32 0x3E4CCCCD#32)) (addf (Host.dotGeneral d₂ none z w₂) (broadcastInDim ⟨2, ![A, K₂]⟩ (![0, 1] : Fin 2 → Fin 2) g2 (broadcastInDim ⟨2, ![1, K₂]⟩ (![1] : Fin 1 → Fin 2) g1 b₂))))) w₃) (broadcastInDim ⟨2, ![A, B]⟩ (![0, 1] : Fin 2 → Fin 2) g4 (broadcastInDim ⟨2, ![1, B]⟩ (![1] : Fin 1 → Fin 2) g3 b₃))) (ix2 r c)
      = (∑ k : Fin K₂, leaky ((∑ j : Fin K₁, z (ix2 r j) * w₂ (ix2 j k)) + b₂ (ix1 k)) * w₃ (ix2 k c)) + b₃ (ix1 c) := by
  show (Host.dotGeneral d₃ none _ w₃) (ix2 r c) + (broadcastInDim ⟨2, ![A, B]⟩ (![0, 1] : Fin 2 → Fin 2) g4 (broadcastInDim ⟨2, ![1, B]⟩ (![1] : Fin 1 → Fin 2) g3 b₃)) (ix2 r c) = _
  rw [hostRow_apply (A := A) b₃ g3 g4 r c, hostDot_apply d₃ q1 q2 q3 q4 q5 q6 _ w₃ r c]
  refine congrArg (· + b₃ (ix1 c)) (Finset.sum_congr rfl fun k _ => congrArg (· * w₃ (ix2 k c)) ?_)
  rw [hostBiasLeaky_apply (A := A) _ b₂ g1 g2 g0 r k, hostDot_apply d₂ p1 p2 p3 p4 p5 p6 z w₂ r k]

end Head

end Cert.Lib.LeakyDense

end
-- ==== Proof.LibChebDense.lean ====
/-
  A CHEBYSHEV-ORDER-3 DENSE STAGE WITH A RECTIFIER, AND A LINEAR HEAD, READ AT AN INDEX — generic in the extents.

  Over the extended reals, for rows a₀, a₁, a₂ of length K (a node's features, their first propagation, and the
  propagation of that), columns u₀, u₁, u₂ of three weight matrices and a bias entry b,

      cheb a₀ a₁ a₂ u₀ u₁ u₂ b = max (((Σ a₀·u₀ + Σ a₁·u₁) + Σ (2·a₂ − a₀)·u₂) + b) 0

  (the third Chebyshev term 2·a₂ − a₀ formed entry by entry before its product; the two and the zero kept as their
  f32 words, the same words in both spellings below, so neither is ever evaluated).  A kernel spells the three
  products as matmuls into zero accumulators of operands narrowed to another float format (the identity on the
  extended reals), the bias as a row [1, B] broadcast over the rows, the two and the zero as scalar splats; the host
  spells them as dot_general, the bias broadcast twice, the constants broadcast from rank 0.  Both read `cheb` of
  the operands' row r and the weights' column c at (r, c).

  The head  h · W + b  at (r, c) is  Σ h(r, k) · W(k, c) + b(c)  in both spellings, and a weight matrix taken out of
  a stack [M, K, B] — by a kernel's load of the sub-block at (q, 0, 0) cast to [K, B], by the host's slice and
  reshape — reads the stack at (q, k, c).

  Nothing here depends on a program.
-/
import Idealize.ShloMosaic.Lib.ValueIdx
import Idealize.ShloMosaic.Lib.ValueLayout
import Idealize.ShloMosaic.Lib.Pipeline.Value
import Idealize.ShloMosaic.PureOps.Ideal.Laws
import proofs.«146737_j35888746725726_2_alg».proof.Proof.LibPlainDot
import proofs.«146737_j35888746725726_2_alg».proof.Proof.LibLeakyDense

noncomputable section

open scoped BigOperators

namespace Cert.Lib.ChebDense

open Idealize.ShloMosaic Idealize.ShloMosaic.ValueIdx Cert.Lib.PlainDot Cert.Lib.LeakyDense

variable {A K B : Nat}

/-- The rectified third-order Chebyshev combination of three rows against three weight columns, plus a bias entry. -/
def cheb (a0 a1 a2 u0 u1 u2 : Fin K → Ideal .f32) (b : Ideal .f32) : Ideal .f32 :=
  FloatOps.maximumf
    (FloatOps.addf
      (FloatOps.addf (FloatOps.addf (∑ k : Fin K, a0 k * u0 k) (∑ k : Fin K, a1 k * u1 k))
        (∑ k : Fin K, FloatOps.subf (FloatOps.mulf (FloatOps.ofBits .f32 0x40000000#32) (a2 k)) (a0 k) * u2 k))
      b)
    (FloatOps.ofBits .f32 0x00000000#32)

/-- A kernel's spelling of the stage, read at (r, c). -/
theorem kernelCheb_apply {ψ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (hb : ψ.bits < FTy.f32.bits)
    (x0 x1 p1 : FVec Ideal ⟨2, ![A, K]⟩ .f32) (w0 w1 w2 : FVec Ideal ⟨2, ![K, B]⟩ .f32)
    (brow : FVec Ideal ⟨2, ![1, B]⟩ .f32) (hr : (⟨2, ![1, B]⟩ : Shape).Broadcasts ⟨2, ![A, B]⟩)
    (r : Fin A) (c : Fin B) :
    maximumf
      (addf
        (addf
          (addf (matmul d none (truncf ψ x0 hb) (truncf ψ w0 hb) (constant ⟨2, ![A, B]⟩ .f32 0x00000000#32))
            (matmul d none (truncf ψ x1 hb) (truncf ψ w1 hb) (constant ⟨2, ![A, B]⟩ .f32 0x00000000#32)))
          (matmul d none
            (truncf ψ (subf (mulf (broadcast ⟨2, ![A, K]⟩ (Scalar.ofBits (F := Ideal) .f32 0x40000000#32)) p1) x0) hb)
            (truncf ψ w2 hb) (constant ⟨2, ![A, B]⟩ .f32 0x00000000#32)))
        (broadcastTo ⟨2, ![A, B]⟩ brow hr))
      (broadcast ⟨2, ![A, B]⟩ (Scalar.ofBits (F := Ideal) .f32 0x00000000#32)) (ix2 r c)
      = cheb (fun k => x0 (ix2 r k)) (fun k => x1 (ix2 r k)) (fun k => p1 (ix2 r k))
          (fun k => w0 (ix2 k c)) (fun k => w1 (ix2 k c)) (fun k => w2 (ix2 k c)) (brow (ix2 (0 : Fin 1) c)) := by
  show FloatOps.maximumf
      (FloatOps.addf
        (FloatOps.addf
          (FloatOps.addf (matmul d none (truncf ψ x0 hb) (truncf ψ w0 hb) _ (ix2 r c))
            (matmul d none (truncf ψ x1 hb) (truncf ψ w1 hb) _ (ix2 r c)))
          (matmul d none (truncf ψ (subf (mulf (broadcast ⟨2, ![A, K]⟩ (Scalar.ofBits (F := Ideal) .f32 0x40000000#32)) p1) x0) hb)
            (truncf ψ w2 hb) _ (ix2 r c)))
        (broadcastTo ⟨2, ![A, B]⟩ brow hr (ix2 r c))) _ = _
  rw [kernelDot_apply d h1 h2 h3 h4 h5 h6 hb x0 w0 r c, kernelDot_apply d h1 h2 h3 h4 h5 h6 hb x1 w1 r c,
    kernelDot_apply d h1 h2 h3 h4 h5 h6 hb _ w2 r c, broadcastTo_1b_ab_apply brow hr r c]
  rfl

/-- The host's spelling of the stage, read at (r, c). -/
theorem hostCheb_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (x0 x1 p1 : FVec Ideal ⟨2, ![A, K]⟩ .f32) (w0 w1 w2 : FVec Ideal ⟨2, ![K, B]⟩ .f32)
    (b : FVec Ideal ⟨1, ![B]⟩ .f32)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (gk : (⟨0, ![]⟩ : Shape).BroadcastsInDim ⟨2, ![A, K]⟩ (![] : Fin 0 → Fin 2))
    (g0 : (⟨0, ![]⟩ : Shape).BroadcastsInDim ⟨2, ![A, B]⟩ (![] : Fin 0 → Fin 2))
    (r : Fin A) (c : Fin B) :
    maximumf
      (addf
        (addf
          (addf (Host.dotGeneral d none x0 w0) (Host.dotGeneral d none x1 w1))
          (Host.dotGeneral d none
            (subf (mulf (broadcastInDim ⟨2, ![A, K]⟩ (![] : Fin 0 → Fin 2) gk (constant (F := Ideal) ⟨0, ![]⟩ .f32 0x40000000#32)) p1) x0)
            w2))
        (broadcastInDim ⟨2, ![A, B]⟩ (![0, 1] : Fin 2 → Fin 2) g2 (broadcastInDim ⟨2, ![1, B]⟩ (![1] : Fin 1 → Fin 2) g1 b)))
      (broadcastInDim ⟨2, ![A, B]⟩ (![] : Fin 0 → Fin 2) g0 (constant (F := Ideal) ⟨0, ![]⟩ .f32 0x00000000#32)) (ix2 r c)
      = cheb (fun k => x0 (ix2 r k)) (fun k => x1 (ix2 r k)) (fun k => p1 (ix2 r k))
          (fun k => w0 (ix2 k c)) (fun k => w1 (ix2 k c)) (fun k => w2 (ix2 k c)) (b (ix1 c)) := by
  show FloatOps.maximumf
      (FloatOps.addf
        (FloatOps.addf
          (FloatOps.addf (Host.dotGeneral d none x0 w0 (ix2 r c)) (Host.dotGeneral d none x1 w1 (ix2 r c)))
          (Host.dotGeneral d none
            (subf (mulf (broadcastInDim ⟨2, ![A, K]⟩ (![] : Fin 0 → Fin 2) gk (constant (F := Ideal) ⟨0, ![]⟩ .f32 0x40000000#32)) p1) x0)
            w2 (ix2 r c)))
        (broadcastInDim ⟨2, ![A, B]⟩ (![0, 1] : Fin 2 → Fin 2) g2 (broadcastInDim ⟨2, ![1, B]⟩ (![1] : Fin 1 → Fin 2) g1 b) (ix2 r c))) _ = _
  rw [hostDot_apply d h1 h2 h3 h4 h5 h6 x0 w0 r c, hostDot_apply d h1 h2 h3 h4 h5 h6 x1 w1 r c,
    hostDot_apply d h1 h2 h3 h4 h5 h6 _ w2 r c, hostRow_apply (A := A) b g1 g2 r c]
  rfl

/-! ## The linear head -/

/-- A kernel's spelling of the head — the left operand already in the narrow format, the weights narrowed, the
    product into a zero accumulator, the bias a row broadcast over the rows — read at (r, c). -/
theorem kernelHead_apply {ψ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (hb : ψ.bits < FTy.f32.bits)
    (hid : FVec Ideal ⟨2, ![A, K]⟩ ψ) (wl : FVec Ideal ⟨2, ![K, B]⟩ .f32)
    (brow : FVec Ideal ⟨2, ![1, B]⟩ .f32) (hr : (⟨2, ![1, B]⟩ : Shape).Broadcasts ⟨2, ![A, B]⟩)
    (r : Fin A) (c : Fin B) :
    addf (matmul d none hid (truncf ψ wl hb) (constant ⟨2, ![A, B]⟩ .f32 0x00000000#32))
        (broadcastTo ⟨2, ![A, B]⟩ brow hr) (ix2 r c)
      = FloatOps.addf (∑ k : Fin K, hid (ix2 r k) * wl (ix2 k c)) (brow (ix2 (0 : Fin 1) c)) := by
  obtain rfl := eq_plain d h1 h2 h3 h4 h5 h6
  show FloatOps.addf (matmul (DotDims.plain A K B) none hid (truncf ψ wl hb) _ (ix2 r c)) (broadcastTo ⟨2, ![A, B]⟩ brow hr (ix2 r c)) = _
  rw [matmul_zero_plain_apply none hid (truncf ψ wl hb) (ix2 r c), broadcastTo_1b_ab_apply brow hr r c]
  rfl

/-- The host's spelling of the head, read at (r, c). -/
theorem hostHead_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (hid : FVec Ideal ⟨2, ![A, K]⟩ .f32) (wl : FVec Ideal ⟨2, ![K, B]⟩ .f32) (b : FVec Ideal ⟨1, ![B]⟩ .f32)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (r : Fin A) (c : Fin B) :
    addf (Host.dotGeneral d none hid wl)
        (broadcastInDim ⟨2, ![A, B]⟩ (![0, 1] : Fin 2 → Fin 2) g2 (broadcastInDim ⟨2, ![1, B]⟩ (![1] : Fin 1 → Fin 2) g1 b)) (ix2 r c)
      = FloatOps.addf (∑ k : Fin K, hid (ix2 r k) * wl (ix2 k c)) (b (ix1 c)) := by
  show FloatOps.addf (Host.dotGeneral d none hid wl (ix2 r c))
    (broadcastInDim ⟨2, ![A, B]⟩ (![0, 1] : Fin 2 → Fin 2) g2 (broadcastInDim ⟨2, ![1, B]⟩ (![1] : Fin 1 → Fin 2) g1 b) (ix2 r c)) = _
  rw [hostDot_apply d h1 h2 h3 h4 h5 h6 hid wl r c, hostRow_apply (A := A) b g1 g2 r c]

/-! ## The stages as whole arrays -/

/-- The Chebyshev stage as an array [A, B]: entry (r, c) combines row r of the three operands with column c of the
    three matrices of the stack W and the bias entry b(c). -/
def chebLayer (x0 x1 p1 : (⟨2, ![A, K]⟩ : Shape).Idx → Ideal .f32) (W : (⟨3, ![3, K, B]⟩ : Shape).Idx → Ideal .f32)
    (b : Fin B → Ideal .f32) : (⟨2, ![A, B]⟩ : Shape).Idx → Ideal .f32 :=
  fun i => cheb (fun k => x0 (ix2 (i 0) k)) (fun k => x1 (ix2 (i 0) k)) (fun k => p1 (ix2 (i 0) k))
    (fun k => W (ix3 (0 : Fin 3) k (i 1))) (fun k => W (ix3 (1 : Fin 3) k (i 1))) (fun k => W (ix3 (2 : Fin 3) k (i 1))) (b (i 1))

/-- The head as an array [A, B]: entry (r, c) is Σ h(r, k) · Wl(k, c) + b(c). -/
def headLayer (h : (⟨2, ![A, K]⟩ : Shape).Idx → Ideal .f32) (Wl : (⟨2, ![K, B]⟩ : Shape).Idx → Ideal .f32)
    (b : Fin B → Ideal .f32) : (⟨2, ![A, B]⟩ : Shape).Idx → Ideal .f32 :=
  fun i => FloatOps.addf (∑ k : Fin K, h (ix2 (i 0) k) * Wl (ix2 k (i 1))) (b (i 1))

/-! ## One weight matrix out of a stack -/

variable {M : Nat} {α : Type} {Val : EltTy → Type} {e : EltTy}

/-- A kernel's load of the sub-block [1, K, B] at (q, 0, 0) of a stack [M, K, B], cast to [K, B], reads the stack at
    (q, k, c). -/
theorem kernelSlab_apply (W : (⟨3, ![M, K, B]⟩ : Shape).Idx → Val e) (q : Fin M) (off : Fin 3 → Nat)
    (e0 : off 0 = q.val) (e1 : off 1 = 0) (e2 : off 2 = 0)
    (inb : ∀ a, off a + (⟨3, ![1, K, B]⟩ : Shape).size a ≤ (⟨3, ![M, K, B]⟩ : Shape).size a)
    (hc : (⟨3, ![1, K, B]⟩ : Shape).ShapeCasts ⟨2, ![K, B]⟩) (k : Fin K) (c : Fin B) :
    shapeCast ⟨2, ![K, B]⟩ (View.ld (Val := Val) W (Rect.unit (s := ⟨3, ![M, K, B]⟩) off (⟨3, ![1, K, B]⟩ : Shape).size inb)) hc (ix2 k c)
      = W (ix3 q k c) := by
  rw [shapeCast_1ab_ab_apply _ hc k c]
  show W ((Rect.unit (s := ⟨3, ![M, K, B]⟩) off (⟨3, ![1, K, B]⟩ : Shape).size inb).emb (ix3 (0 : Fin 1) k c)) = _
  refine congrArg W (funext fun a => Fin.ext ?_)
  rw [Rect.emb_apply]
  match a with
  | ⟨0, _⟩ => show off 0 + 1 * 0 = q.val; omega
  | ⟨1, _⟩ => show off 1 + 1 * k.val = k.val; omega
  | ⟨2, _⟩ => show off 2 + 1 * c.val = c.val; omega

/-- The host's slice [1, K, B] at (q, 0, 0) of a stack [M, K, B], reshaped to [K, B], reads the stack at (q, k, c). -/
theorem hostSlab_apply (W : (⟨3, ![M, K, B]⟩ : Shape).Idx → α) (q : Fin M) (off : Fin 3 → Nat)
    (e0 : off 0 = q.val) (e1 : off 1 = 0) (e2 : off 2 = 0)
    (hs : (⟨3, ![M, K, B]⟩ : Shape).Slices off ⟨3, ![1, K, B]⟩)
    (hc : (⟨3, ![1, K, B]⟩ : Shape).ShapeCasts ⟨2, ![K, B]⟩) (k : Fin K) (c : Fin B) :
    shapeCast ⟨2, ![K, B]⟩ (extractStridedSlice ⟨3, ![1, K, B]⟩ off W hs) hc (ix2 k c) = W (ix3 q k c) := by
  rw [shapeCast_1ab_ab_apply _ hc k c]
  refine extractStridedSlice_apply off W hs _ _ fun a => ?_
  match a with
  | ⟨0, _⟩ => show q.val = off 0 + 0; omega
  | ⟨1, _⟩ => show k.val = off 1 + k.val; omega
  | ⟨2, _⟩ => show c.val = off 2 + c.val; omega

end Cert.Lib.ChebDense

end
-- ==== Proof.Layer1.lean ====
/-
  REGION 0 (the first dense stage), as one array.

  At grid point t the kernel reads rows 5000·t … 5000·t + 4999 of its three row operands, the whole stack of weight
  matrices and the bias row, and writes the same rows of its output.  Its payload at (r, c) of the block is the
  Chebyshev stage of row r of the three blocks against column c of the three matrices; a block's row r is the array's
  row 5000·t + r; so what point t writes back is block t of the stage applied to the WHOLE operand arrays, and the ten
  blocks tile the output: the output array ends as that one function of the arrays the region was entered with.
-/
import proofs.«146737_j35888746725726_2_alg».proof.Proof.Gen.KernelIdeal.Frame
import proofs.«146737_j35888746725726_2_alg».proof.Proof.LibChebDense
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.SL.Sem Cert.Lib.ChebDense
open Idealize.ShloMosaic.Pipeline (Dat Cfg Window)

theorem hz2 : (![0, 0] : Fin 2 → Nat) = fun _ => 0 := funext fun a => by fin_cases a <;> rfl

/-- The body's arithmetic at (r, c) of a block: the Chebyshev stage of row r of the three row operands against
    column c of the three weight matrices, plus the bias row's entry c. -/
theorem pay_apply (x0 x1 x2 : Vec Ideal S5000x96 .f32) (x3 : Vec Ideal S3x96x96 .f32) (x4 : Vec Ideal S1x96 .f32)
    (r : Fin 5000) (c : Fin 96) :
    k0_pay1 (F := Ideal) x0 x1 x2 (View.ld x3 r0_1) (View.ld x3 r0_2) (View.ld x3 r0_3) x4 (ix2 r c)
      = cheb (fun k => x0 (ix2 r k)) (fun k => x1 (ix2 r k)) (fun k => x2 (ix2 r k))
          (fun k => x3 (ix3 (0 : Fin 3) k c)) (fun k => x3 (ix3 (1 : Fin 3) k c)) (fun k => x3 (ix3 (2 : Fin 3) k c))
          (x4 (ix2 (0 : Fin 1) c)) := by
  unfold k0_pay1
  rw [shapeCast_self, shapeCast_self, shapeCast_self]
  refine (kernelCheb_apply (A := 5000) (K := 96) (B := 96) (ψ := .bf16) dot_S5000x96_S96x96_S5000x96_1_0_0_1_n_n rfl rfl rfl rfl rfl rfl
    bitsLt_bf16_f32 x0 x1 x2
    (shapeCast S96x96 (View.ld x3 r0_1) shapeCasts_S1x96x96_S96x96)
    (shapeCast S96x96 (View.ld x3 r0_2) shapeCasts_S1x96x96_S96x96)
    (shapeCast S96x96 (View.ld x3 r0_3) shapeCasts_S1x96x96_S96x96)
    x4 broadcasts_S1x96_S5000x96 r c).trans ?_
  have e0 : (fun k : Fin 96 => shapeCast S96x96 (View.ld x3 r0_1) shapeCasts_S1x96x96_S96x96 (ix2 k c)) = fun k => x3 (ix3 (0 : Fin 3) k c) :=
    funext fun k => kernelSlab_apply (M := 3) (K := 96) (B := 96) x3 0 ![0, 0, 0] rfl rfl rfl inb_S3x96x96_S1x96x96_0_0_0 shapeCasts_S1x96x96_S96x96 k c
  have e1 : (fun k : Fin 96 => shapeCast S96x96 (View.ld x3 r0_2) shapeCasts_S1x96x96_S96x96 (ix2 k c)) = fun k => x3 (ix3 (1 : Fin 3) k c) :=
    funext fun k => kernelSlab_apply (M := 3) (K := 96) (B := 96) x3 1 ![1, 0, 0] rfl rfl rfl inb_S3x96x96_S1x96x96_1_0_0 shapeCasts_S1x96x96_S96x96 k c
  have e2 : (fun k : Fin 96 => shapeCast S96x96 (View.ld x3 r0_3) shapeCasts_S1x96x96_S96x96 (ix2 k c)) = fun k => x3 (ix3 (2 : Fin 3) k c) :=
    funext fun k => kernelSlab_apply (M := 3) (K := 96) (B := 96) x3 2 ![2, 0, 0] rfl rfl rfl inb_S3x96x96_S1x96x96_2_0_0 shapeCasts_S1x96x96_S96x96 k c
  rw [e0, e1, e2]

/-- The printed index maps over the grid: the three row operands and the output move with the point along the rows,
    the weights and the bias stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The stage applied to the whole arrays the region is entered with. -/
abbrev stage (c : Dev nD) : S50000x96.Idx → Ideal .f32 :=
  chebLayer (A := 50000) (K := 96) (B := 96) (V c main_arg0) (V c main_v46) (V c main_v62) (V c main_arg3)
    (fun j => V c main_v63 (ix2 (0 : Fin 1) j))

/-- What point t writes back is block t of the stage of the whole arrays. -/
theorem flushed_eq (c : Dev nD) (t : Fin cfg0.N) :
    (dat0 V c).flushed 5 t = ((cfg0.win 5).blk t).view.read (Elt Ideal) (stage V c) := by
  show (cfg0.win 5).cut (grid0.coords t) ((dat0 V c).after 5 t) = _
  rw [after0_5]
  unfold out0_5
  rw [View.canon_unit_zero hz2]
  simp only [View.ld_unit_zero (S := S5000x96) hz2, View.ld_unit_zero (S := S1x96) hz2]
  obtain ⟨a0, a1, b0, b1, c0, c1, d0, d1, d2, e0, e1, f0, f1⟩ := idx_facts t
  funext j
  obtain ⟨r, q, rfl⟩ : ∃ (r : Fin 5000) (q : Fin 96), j = ix2 r q := ⟨j 0, j 1, eq_ix2 j⟩
  refine (pay_apply (iblk0 V c 0 t) (iblk0 V c 1 t) (iblk0 V c 2 t) (iblk0 V c 3 t) (iblk0 V c 4 t) r q).trans ?_
  have hrow : ∀ k : Fin 96, ((cfg0.win 0).blk t).view.emb (ix2 r k) = ix2 ((((cfg0.win 5).blk t).view.emb (ix2 r q)) 0) k := by
    intro k; funext a; apply Fin.ext
    match a with
    | ⟨0, _⟩ => show win0_0.index t (0 : Fin 2) * 5000 + 1 * r.val = win0_5.index t (0 : Fin 2) * 5000 + 1 * r.val; omega
    | ⟨1, _⟩ => show win0_0.index t (1 : Fin 2) * 96 + 1 * k.val = k.val; omega
  have hrow1 : ∀ k : Fin 96, ((cfg0.win 1).blk t).view.emb (ix2 r k) = ix2 ((((cfg0.win 5).blk t).view.emb (ix2 r q)) 0) k := by
    intro k; funext a; apply Fin.ext
    match a with
    | ⟨0, _⟩ => show win0_1.index t (0 : Fin 2) * 5000 + 1 * r.val = win0_5.index t (0 : Fin 2) * 5000 + 1 * r.val; omega
    | ⟨1, _⟩ => show win0_1.index t (1 : Fin 2) * 96 + 1 * k.val = k.val; omega
  have hrow2 : ∀ k : Fin 96, ((cfg0.win 2).blk t).view.emb (ix2 r k) = ix2 ((((cfg0.win 5).blk t).view.emb (ix2 r q)) 0) k := by
    intro k; funext a; apply Fin.ext
    match a with
    | ⟨0, _⟩ => show win0_2.index t (0 : Fin 2) * 5000 + 1 * r.val = win0_5.index t (0 : Fin 2) * 5000 + 1 * r.val; omega
    | ⟨1, _⟩ => show win0_2.index t (1 : Fin 2) * 96 + 1 * k.val = k.val; omega
  have hw : ∀ (s : Fin 3) (k : Fin 96), ((cfg0.win 3).blk t).view.emb (ix3 s k q) = ix3 s k ((((cfg0.win 5).blk t).view.emb (ix2 r q)) 1) := by
    intro s k; funext a; apply Fin.ext
    match a with
    | ⟨0, _⟩ => show win0_3.index t (0 : Fin 3) * 3 + 1 * s.val = s.val; omega
    | ⟨1, _⟩ => show win0_3.index t (1 : Fin 3) * 96 + 1 * k.val = k.val; omega
    | ⟨2, _⟩ => show win0_3.index t (2 : Fin 3) * 96 + 1 * q.val = win0_5.index t (1 : Fin 2) * 96 + 1 * q.val; omega
  have hb : ((cfg0.win 4).blk t).view.emb (ix2 (0 : Fin 1) q) = ix2 (0 : Fin 1) ((((cfg0.win 5).blk t).view.emb (ix2 r q)) 1) := by
    funext a; apply Fin.ext
    match a with
    | ⟨0, _⟩ => show win0_4.index t (0 : Fin 2) * 1 + 1 * 0 = 0; omega
    | ⟨1, _⟩ => show win0_4.index t (1 : Fin 2) * 96 + 1 * q.val = win0_5.index t (1 : Fin 2) * 96 + 1 * q.val; omega
  have hL0 : (fun k : Fin 96 => iblk0 V c 0 t (ix2 r k)) = fun k => V c main_arg0 (ix2 ((((cfg0.win 5).blk t).view.emb (ix2 r q)) 0) k) :=
    funext fun k => congrArg (V c main_arg0) (hrow k)
  have hL1 : (fun k : Fin 96 => iblk0 V c 1 t (ix2 r k)) = fun k => V c main_v46 (ix2 ((((cfg0.win 5).blk t).view.emb (ix2 r q)) 0) k) :=
    funext fun k => congrArg (V c main_v46) (hrow1 k)
  have hL2 : (fun k : Fin 96 => iblk0 V c 2 t (ix2 r k)) = fun k => V c main_v62 (ix2 ((((cfg0.win 5).blk t).view.emb (ix2 r q)) 0) k) :=
    funext fun k => congrArg (V c main_v62) (hrow2 k)
  have hU : ∀ s : Fin 3, (fun k : Fin 96 => iblk0 V c 3 t (ix3 s k q)) = fun k => V c main_arg3 (ix3 s k ((((cfg0.win 5).blk t).view.emb (ix2 r q)) 1)) :=
    fun s => funext fun k => congrArg (V c main_arg3) (hw s k)
  have hB : iblk0 V c 4 t (ix2 (0 : Fin 1) q) = V c main_v63 (ix2 (0 : Fin 1) ((((cfg0.win 5).blk t).view.emb (ix2 r q)) 1)) :=
    congrArg (V c main_v63) hb
  rw [hL0, hL1, hL2, hU 0, hU 1, hU 2, hB]
  rfl

/-- An index of the output array is in point t's block iff its row is among the block's rows. -/
theorem mem_blk (t : Fin cfg0.N) (i : S50000x96.Idx) :
    i ∈ ((cfg0.win 5).blk t).view.set ↔ ∀ a : Fin 2, win0_5.index t a * S5000x96.size a ≤ (i a).val ∧ (i a).val < win0_5.index t a * S5000x96.size a + S5000x96.size a := by
  show i ∈ ((View.whole main_v64).slice (win0_5.rect t)).set ↔ _
  rw [View.set_slice_whole, Rect.mem_set_unit]
  exact Iff.rfl

/-- The ten blocks tile the output: row ρ lies in the block of point ρ / 5000. -/
theorem cover (i : S50000x96.Idx) : ∃ t : Fin cfg0.N, (cfg0.win 5).flush t = true ∧ i ∈ ((cfg0.win 5).blk t).view.set := by
  have hi0 : (i 0).val < 50000 := (i 0).isLt
  have hi1 : (i 1).val < 96 := (i 1).isLt
  have hN : cfg0.N = 10 := N_0
  let t : Fin cfg0.N := ⟨(i 0).val / 5000, by rw [hN]; omega⟩
  obtain ⟨a0, a1, b0, b1, c0, c1, d0, d1, d2, e0, e1, f0, f1⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 96 ≤ (i 1).val ∧ (i 1).val < win0_5.index t (1 : Fin 2) * 96 + 96; omega

/-- THE OUTPUT ARRAY after the region: the stage of the whole arrays it was entered with. -/
theorem final (c : Dev nD) : (dat0 V c).arrAt 5 cfg0.N = stage V c :=
  (dat0 V c).arrAt_eq_of_cover 5 (stage V c) (fun t _ => flushed_eq V c t) (cover)

end Cert.KernelIdeal.Layer1

end
-- ==== Proof.Layer2.lean ====
/-
  REGION 1 (the second dense stage with the linear head fused in), as one array.

  At grid point t the kernel reads rows 5000·t … 5000·t + 4999 of its three row operands, the whole stack of weight
  matrices, the bias row, the head's weights and the head's bias row, and writes the same rows of its [50000, 2]
  output.  Its payload at (r, c) of the block is the head, Σ_k hidden(r, k) · Wlin(k, c) + blin(c), of the hidden row
  hidden(r, k) = the Chebyshev stage of row r of the three blocks against column k; a block's row r is the array's
  row 5000·t + r; so what point t writes back is block t of head ∘ stage applied to the WHOLE operand arrays, and the
  ten blocks tile the output.
-/
import proofs.«146737_j35888746725726_2_alg».proof.Proof.Gen.KernelIdeal.Frame
import proofs.«146737_j35888746725726_2_alg».proof.Proof.LibChebDense
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.ShloMosaic.ValueIdx
open Idealize.SL.Sem Cert.Lib.ChebDense
open Idealize.ShloMosaic.Pipeline (Dat Cfg Window)

theorem hz2 : (![0, 0] : Fin 2 → Nat) = fun _ => 0 := funext fun a => by fin_cases a <;> rfl

/-- The hidden row's entry k: the Chebyshev stage of row r of the three row operands against column k. -/
theorem hidden_apply (x0 x1 x2 : Vec Ideal S5000x96 .f32) (x3 : Vec Ideal S3x96x96 .f32) (x4 : Vec Ideal S1x96 .f32)
    (r : Fin 5000) (k : Fin 96) :
    k1_pay2 (F := Ideal) x0 x1 x2 (View.ld x3 r1_1) (View.ld x3 r1_2) (View.ld x3 r1_3) x4 (ix2 r k)
      = cheb (fun j => x0 (ix2 r j)) (fun j => x1 (ix2 r j)) (fun j => x2 (ix2 r j))
          (fun j => x3 (ix3 (0 : Fin 3) j k)) (fun j => x3 (ix3 (1 : Fin 3) j k)) (fun j => x3 (ix3 (2 : Fin 3) j k))
          (x4 (ix2 (0 : Fin 1) k)) := by
  unfold k1_pay2
  rw [shapeCast_self, shapeCast_self, shapeCast_self, shapeCast_self]
  refine (kernelCheb_apply (A := 5000) (K := 96) (B := 96) (ψ := .bf16) dot_S5000x96_S96x96_S5000x96_1_0_0_1_n_n rfl rfl rfl rfl rfl rfl
    bitsLt_bf16_f32 x0 x1 x2
    (shapeCast S96x96 (View.ld x3 r1_1) shapeCasts_S1x96x96_S96x96)
    (shapeCast S96x96 (View.ld x3 r1_2) shapeCasts_S1x96x96_S96x96)
    (shapeCast S96x96 (View.ld x3 r1_3) shapeCasts_S1x96x96_S96x96)
    x4 broadcasts_S1x96_S5000x96 r k).trans ?_
  have e0 : (fun j : Fin 96 => shapeCast S96x96 (View.ld x3 r1_1) shapeCasts_S1x96x96_S96x96 (ix2 j k)) = fun j => x3 (ix3 (0 : Fin 3) j k) :=
    funext fun j => kernelSlab_apply (M := 3) (K := 96) (B := 96) x3 0 ![0, 0, 0] rfl rfl rfl inb_S3x96x96_S1x96x96_0_0_0 shapeCasts_S1x96x96_S96x96 j k
  have e1 : (fun j : Fin 96 => shapeCast S96x96 (View.ld x3 r1_2) shapeCasts_S1x96x96_S96x96 (ix2 j k)) = fun j => x3 (ix3 (1 : Fin 3) j k) :=
    funext fun j => kernelSlab_apply (M := 3) (K := 96) (B := 96) x3 1 ![1, 0, 0] rfl rfl rfl inb_S3x96x96_S1x96x96_1_0_0 shapeCasts_S1x96x96_S96x96 j k
  have e2 : (fun j : Fin 96 => shapeCast S96x96 (View.ld x3 r1_3) shapeCasts_S1x96x96_S96x96 (ix2 j k)) = fun j => x3 (ix3 (2 : Fin 3) j k) :=
    funext fun j => kernelSlab_apply (M := 3) (K := 96) (B := 96) x3 2 ![2, 0, 0] rfl rfl rfl inb_S3x96x96_S1x96x96_2_0_0 shapeCasts_S1x96x96_S96x96 j k
  rw [e0, e1, e2]

/-- The body's arithmetic at (r, c) of a block: the head of the hidden row r against column c of the head's weights,
    plus the head's bias entry c. -/
theorem pay_apply (x0 x1 x2 : Vec Ideal S5000x96 .f32) (x3 : Vec Ideal S3x96x96 .f32) (x4 : Vec Ideal S1x96 .f32)
    (x5 : Vec Ideal S96x2 .f32) (x6 : Vec Ideal S1x2 .f32) (r : Fin 5000) (c : Fin 2) :
    k1_pay1 (F := Ideal) (k1_pay2 (F := Ideal) x0 x1 x2 (View.ld x3 r1_1) (View.ld x3 r1_2) (View.ld x3 r1_3) x4) (k1_pay3 (F := Ideal) x5) x6 (ix2 r c)
      = FloatOps.addf (∑ k : Fin 96,
            cheb (fun j => x0 (ix2 r j)) (fun j => x1 (ix2 r j)) (fun j => x2 (ix2 r j))
              (fun j => x3 (ix3 (0 : Fin 3) j k)) (fun j => x3 (ix3 (1 : Fin 3) j k)) (fun j => x3 (ix3 (2 : Fin 3) j k))
              (x4 (ix2 (0 : Fin 1) k)) * x5 (ix2 k c))
          (x6 (ix2 (0 : Fin 1) c)) := by
  unfold k1_pay1 k1_pay3
  rw [shapeCast_self]
  refine (kernelHead_apply (A := 5000) (K := 96) (B := 2) (ψ := .bf16) dot_S5000x96_S96x2_S5000x2_1_0_0_1_n_n rfl rfl rfl rfl rfl rfl
    bitsLt_bf16_f32 (k1_pay2 (F := Ideal) x0 x1 x2 (View.ld x3 r1_1) (View.ld x3 r1_2) (View.ld x3 r1_3) x4) x5 x6
    broadcasts_S1x2_S5000x2 r c).trans ?_
  refine congrArg (fun s : Ideal .f32 => (FloatOps.addf s (x6 (ix2 (0 : Fin 1) c)) : Ideal .f32)) (Finset.sum_congr rfl fun k _ => ?_)
  exact congrArg (fun v : Ideal .f32 => v * x5 (ix2 k c)) (hidden_apply x0 x1 x2 x3 x4 r k)

/-- The printed index maps over the grid: the three row operands and the output move with the point along the rows,
    every other operand stays put. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- The hidden layer of the whole arrays the region is entered with. -/
abbrev hidden (c : Dev nD) : S50000x96.Idx → Ideal .f32 :=
  chebLayer (A := 50000) (K := 96) (B := 96) (V c main_v64) (V c main_v80) (V c main_v96) (V c main_arg5)
    (fun j => V c main_v97 (ix2 (0 : Fin 1) j))

/-- The head of that hidden layer. -/
abbrev stage (c : Dev nD) : S50000x2.Idx → Ideal .f32 :=
  headLayer (A := 50000) (K := 96) (B := 2) (hidden V c) (V c main_arg7) (fun j => V c main_v98 (ix2 (0 : Fin 1) j))

/-- What point t writes back is block t of the head of the hidden layer of the whole arrays. -/
theorem flushed_eq (c : Dev nD) (t : Fin cfg1.N) :
    (dat1 V c).flushed 7 t = ((cfg1.win 7).blk t).view.read (Elt Ideal) (stage V c) := by
  show (cfg1.win 7).cut (grid1.coords t) ((dat1 V c).after 7 t) = _
  rw [after1_7]
  unfold out1_7
  rw [View.canon_unit_zero hz2]
  simp only [View.ld_unit_zero (S := S5000x96) hz2, View.ld_unit_zero (S := S1x96) hz2, View.ld_unit_zero (S := S96x2) hz2,
    View.ld_unit_zero (S := S1x2) hz2]
  obtain ⟨a0, a1, b0, b1, c0, c1, d0, d1, d2, e0, e1, f0, f1, g0, g1, h0, h1⟩ := idx_facts t
  funext j
  obtain ⟨r, q, rfl⟩ : ∃ (r : Fin 5000) (q : Fin 2), j = ix2 r q := ⟨j 0, j 1, eq_ix2 j⟩
  refine (pay_apply (iblk1 V c 0 t) (iblk1 V c 1 t) (iblk1 V c 2 t) (iblk1 V c 3 t) (iblk1 V c 4 t) (iblk1 V c 5 t) (iblk1 V c 6 t) r q).trans ?_
  have hrow : ∀ k : Fin 96, ((cfg1.win 0).blk t).view.emb (ix2 r k) = ix2 ((((cfg1.win 7).blk t).view.emb (ix2 r q)) 0) k := by
    intro k; funext a; apply Fin.ext
    match a with
    | ⟨0, _⟩ => show win1_0.index t (0 : Fin 2) * 5000 + 1 * r.val = win1_7.index t (0 : Fin 2) * 5000 + 1 * r.val; omega
    | ⟨1, _⟩ => show win1_0.index t (1 : Fin 2) * 96 + 1 * k.val = k.val; omega
  have hrow1 : ∀ k : Fin 96, ((cfg1.win 1).blk t).view.emb (ix2 r k) = ix2 ((((cfg1.win 7).blk t).view.emb (ix2 r q)) 0) k := by
    intro k; funext a; apply Fin.ext
    match a with
    | ⟨0, _⟩ => show win1_1.index t (0 : Fin 2) * 5000 + 1 * r.val = win1_7.index t (0 : Fin 2) * 5000 + 1 * r.val; omega
    | ⟨1, _⟩ => show win1_1.index t (1 : Fin 2) * 96 + 1 * k.val = k.val; omega
  have hrow2 : ∀ k : Fin 96, ((cfg1.win 2).blk t).view.emb (ix2 r k) = ix2 ((((cfg1.win 7).blk t).view.emb (ix2 r q)) 0) k := by
    intro k; funext a; apply Fin.ext
    match a with
    | ⟨0, _⟩ => show win1_2.index t (0 : Fin 2) * 5000 + 1 * r.val = win1_7.index t (0 : Fin 2) * 5000 + 1 * r.val; omega
    | ⟨1, _⟩ => show win1_2.index t (1 : Fin 2) * 96 + 1 * k.val = k.val; omega
  have hw : ∀ (s : Fin 3) (k k' : Fin 96), ((cfg1.win 3).blk t).view.emb (ix3 s k k') = ix3 s k k' := by
    intro s k k'; funext a; apply Fin.ext
    match a with
    | ⟨0, _⟩ => show win1_3.index t (0 : Fin 3) * 3 + 1 * s.val = s.val; omega
    | ⟨1, _⟩ => show win1_3.index t (1 : Fin 3) * 96 + 1 * k.val = k.val; omega
    | ⟨2, _⟩ => show win1_3.index t (2 : Fin 3) * 96 + 1 * k'.val = k'.val; omega
  have hb : ∀ k : Fin 96, ((cfg1.win 4).blk t).view.emb (ix2 (0 : Fin 1) k) = ix2 (0 : Fin 1) k := by
    intro k; funext a; apply Fin.ext
    match a with
    | ⟨0, _⟩ => show win1_4.index t (0 : Fin 2) * 1 + 1 * 0 = 0; omega
    | ⟨1, _⟩ => show win1_4.index t (1 : Fin 2) * 96 + 1 * k.val = k.val; omega
  have hwl : ∀ k : Fin 96, ((cfg1.win 5).blk t).view.emb (ix2 k q) = ix2 k ((((cfg1.win 7).blk t).view.emb (ix2 r q)) 1) := by
    intro k; funext a; apply Fin.ext
    match a with
    | ⟨0, _⟩ => show win1_5.index t (0 : Fin 2) * 96 + 1 * k.val = k.val; omega
    | ⟨1, _⟩ => show win1_5.index t (1 : Fin 2) * 2 + 1 * q.val = win1_7.index t (1 : Fin 2) * 2 + 1 * q.val; omega
  have hbl : ((cfg1.win 6).blk t).view.emb (ix2 (0 : Fin 1) q) = ix2 (0 : Fin 1) ((((cfg1.win 7).blk t).view.emb (ix2 r q)) 1) := by
    funext a; apply Fin.ext
    match a with
    | ⟨0, _⟩ => show win1_6.index t (0 : Fin 2) * 1 + 1 * 0 = 0; omega
    | ⟨1, _⟩ => show win1_6.index t (1 : Fin 2) * 2 + 1 * q.val = win1_7.index t (1 : Fin 2) * 2 + 1 * q.val; omega
  have hL0 : (fun j : Fin 96 => iblk1 V c 0 t (ix2 r j)) = fun j => V c main_v64 (ix2 ((((cfg1.win 7).blk t).view.emb (ix2 r q)) 0) j) :=
    funext fun j => congrArg (V c main_v64) (hrow j)
  have hL1 : (fun j : Fin 96 => iblk1 V c 1 t (ix2 r j)) = fun j => V c main_v80 (ix2 ((((cfg1.win 7).blk t).view.emb (ix2 r q)) 0) j) :=
    funext fun j => congrArg (V c main_v80) (hrow1 j)
  have hL2 : (fun j : Fin 96 => iblk1 V c 2 t (ix2 r j)) = fun j => V c main_v96 (ix2 ((((cfg1.win 7).blk t).view.emb (ix2 r q)) 0) j) :=
    funext fun j => congrArg (V c main_v96) (hrow2 j)
  have hU : ∀ (s : Fin 3) (k : Fin 96), (fun j : Fin 96 => iblk1 V c 3 t (ix3 s j k)) = fun j => V c main_arg5 (ix3 s j k) :=
    fun s k => funext fun j => congrArg (V c main_arg5) (hw s j k)
  have hB : ∀ k : Fin 96, iblk1 V c 4 t (ix2 (0 : Fin 1) k) = V c main_v97 (ix2 (0 : Fin 1) k) :=
    fun k => congrArg (V c main_v97) (hb k)
  have hWl : ∀ k : Fin 96, iblk1 V c 5 t (ix2 k q) = V c main_arg7 (ix2 k ((((cfg1.win 7).blk t).view.emb (ix2 r q)) 1)) :=
    fun k => congrArg (V c main_arg7) (hwl k)
  have hBl : iblk1 V c 6 t (ix2 (0 : Fin 1) q) = V c main_v98 (ix2 (0 : Fin 1) ((((cfg1.win 7).blk t).view.emb (ix2 r q)) 1)) :=
    congrArg (V c main_v98) hbl
  rw [hL0, hL1, hL2, hBl]
  simp only [hU, hB, hWl]
  rfl

/-- An index of the output array is in point t's block iff its row is among the block's rows. -/
theorem mem_blk (t : Fin cfg1.N) (i : S50000x2.Idx) :
    i ∈ ((cfg1.win 7).blk t).view.set ↔ ∀ a : Fin 2, win1_7.index t a * S5000x2.size a ≤ (i a).val ∧ (i a).val < win1_7.index t a * S5000x2.size a + S5000x2.size a := by
  show i ∈ ((View.whole main_v99).slice (win1_7.rect t)).set ↔ _
  rw [View.set_slice_whole, Rect.mem_set_unit]
  exact Iff.rfl

/-- The ten blocks tile the output: row ρ lies in the block of point ρ / 5000. -/
theorem cover (i : S50000x2.Idx) : ∃ t : Fin cfg1.N, (cfg1.win 7).flush t = true ∧ i ∈ ((cfg1.win 7).blk t).view.set := by
  have hi0 : (i 0).val < 50000 := (i 0).isLt
  have hi1 : (i 1).val < 2 := (i 1).isLt
  have hN : cfg1.N = 10 := N_1
  let t : Fin cfg1.N := ⟨(i 0).val / 5000, by rw [hN]; omega⟩
  obtain ⟨a0, a1, b0, b1, c0, c1, d0, d1, d2, e0, e1, f0, f1, g0, g1, h0, h1⟩ := idx_facts t
  have ht : t.val = (i 0).val / 5000 := rfl
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 2 ≤ (i 1).val ∧ (i 1).val < win1_7.index t (1 : Fin 2) * 2 + 2; omega

/-- THE OUTPUT ARRAY after the region: the head of the hidden layer of the whole arrays it was entered with. -/
theorem final (c : Dev nD) : (dat1 V c).arrAt 7 cfg1.N = stage V c :=
  (dat1 V c).arrAt_eq_of_cover 7 (stage V c) (fun t _ => flushed_eq V c t) (cover)

end Cert.KernelIdeal.Layer2

end
-- ==== Proof.RefStages.lean ====
/-
  The reference, stage by stage, as the arrays the kernel's regions compute.

  One propagation step  P h = scatter-add over the edges of  norm_w(e) · h[src(e)]  into row dst(e), plus 0 · h,  is the same
  composition of host operations each of the four times the reference applies it: `prop` names it once, as a function
  of the edge list, the edge weights and the array h it propagates.  With it, the first layer's output is the
  Chebyshev stage of  (x, P x, P (P x))  against W1, b1; the second layer's output the same stage of  (h1, P h1, P (P h1))
  against W2, b2; and the result the linear head of the second layer's output.
-/
import proofs.«146737_j35888746725726_2_alg».proof.Proof.Gen.ReferenceIdeal.Read
import proofs.«146737_j35888746725726_2_alg».proof.Proof.LibChebDense

noncomputable section

namespace Cert.ReferenceIdeal.RefStages

open Cert.ReferenceIdeal Cert.ReferenceIdeal.Gen Cert.ReferenceIdeal.Read Idealize.ShloMosaic Idealize.ShloMosaic.ValueIdx Cert.Lib.ChebDense

/-- One propagation step of the scaled Laplacian over the edge list `x1` with edge weights `x2`, applied to `h`:
    the gather of h's rows at the edges' sources, scaled by the edges' normalised weights, scatter-added at the
    edges' destinations into zeros, plus zero times h. -/
def prop (x1 : (⟨S2x800000, .i32⟩ : BufTy).Contents (Elt Ideal)) (x2 : (⟨S800000, .f32⟩ : BufTy).Contents (Elt Ideal)) (h : FVec Ideal S50000x96 .f32) : FVec Ideal S50000x96 .f32 :=
  addf (F := Ideal)
    (Host.scatterAdd (F := Ideal) scatter_S50000x96_S800000x1_S800000x96_1_0_0_1 (val_main_v44 (F := Ideal)) (val_main_v45 (F := Ideal) x1)
      (mulf (F := Ideal) (val_main_v42 (F := Ideal) x1 x2)
        (Host.gather gather_S50000x96_S800000x1_S800000x96_1_0_n_n_0_1_196 h (val_main_v40 (F := Ideal) x1))))
    (mulf (F := Ideal) (val_main_v47 (F := Ideal)) h)

theorem v49_eq (x0 : (⟨S50000x96, .f32⟩ : BufTy).Contents (Elt Ideal)) (x1 : (⟨S2x800000, .i32⟩ : BufTy).Contents (Elt Ideal)) (x2 : (⟨S800000, .f32⟩ : BufTy).Contents (Elt Ideal)) : val_main_v49 (F := Ideal) x0 x1 x2 = prop x1 x2 x0 := rfl

theorem v69_eq (x0 : (⟨S50000x96, .f32⟩ : BufTy).Contents (Elt Ideal)) (x1 : (⟨S2x800000, .i32⟩ : BufTy).Contents (Elt Ideal)) (x2 : (⟨S800000, .f32⟩ : BufTy).Contents (Elt Ideal)) :
    val_main_v69 (F := Ideal) x0 x1 x2 = prop x1 x2 (val_main_v49 (F := Ideal) x0 x1 x2) := rfl

theorem v99_eq (x0 : (⟨S50000x96, .f32⟩ : BufTy).Contents (Elt Ideal)) (x1 : (⟨S2x800000, .i32⟩ : BufTy).Contents (Elt Ideal)) (x2 : (⟨S800000, .f32⟩ : BufTy).Contents (Elt Ideal)) (x3 : (⟨S3x96x96, .f32⟩ : BufTy).Contents (Elt Ideal)) (x4 : (⟨S96, .f32⟩ : BufTy).Contents (Elt Ideal)) :
    val_main_v99 (F := Ideal) x0 x1 x2 x3 x4 = prop x1 x2 (val_main_v80 (F := Ideal) x0 x1 x2 x3 x4) := rfl

theorem v119_eq (x0 : (⟨S50000x96, .f32⟩ : BufTy).Contents (Elt Ideal)) (x1 : (⟨S2x800000, .i32⟩ : BufTy).Contents (Elt Ideal)) (x2 : (⟨S800000, .f32⟩ : BufTy).Contents (Elt Ideal)) (x3 : (⟨S3x96x96, .f32⟩ : BufTy).Contents (Elt Ideal)) (x4 : (⟨S96, .f32⟩ : BufTy).Contents (Elt Ideal)) :
    val_main_v119 (F := Ideal) x0 x1 x2 x3 x4 = prop x1 x2 (val_main_v99 (F := Ideal) x0 x1 x2 x3 x4) := rfl

/-- The first layer: the Chebyshev stage of (x, P x, P (P x)) against W1 and b1. -/
theorem v80_eq (x0 : (⟨S50000x96, .f32⟩ : BufTy).Contents (Elt Ideal)) (x1 : (⟨S2x800000, .i32⟩ : BufTy).Contents (Elt Ideal)) (x2 : (⟨S800000, .f32⟩ : BufTy).Contents (Elt Ideal)) (x3 : (⟨S3x96x96, .f32⟩ : BufTy).Contents (Elt Ideal)) (x4 : (⟨S96, .f32⟩ : BufTy).Contents (Elt Ideal)) :
    val_main_v80 (F := Ideal) x0 x1 x2 x3 x4
      = chebLayer (A := 50000) (K := 96) (B := 96) x0 (val_main_v49 (F := Ideal) x0 x1 x2) (val_main_v69 (F := Ideal) x0 x1 x2) x3 (fun c => x4 (ix1 c)) := by
  funext i
  obtain ⟨r, c, rfl⟩ : ∃ (r : Fin 50000) (c : Fin 96), i = ix2 r c := ⟨i 0, i 1, eq_ix2 i⟩
  refine (hostCheb_apply (A := 50000) (K := 96) (B := 96) dot_S50000x96_S96x96_S50000x96_1_0_0_1_n_n rfl rfl rfl rfl rfl rfl
    x0 (val_main_v49 (F := Ideal) x0 x1 x2) (val_main_v69 (F := Ideal) x0 x1 x2)
    (val_main_v32 (F := Ideal) x3) (val_main_v51 (F := Ideal) x3) (val_main_v74 (F := Ideal) x3) x4
    bcast_S96_S1x96_1 bcast_S1x96_S50000x96_0_1 bcast_S_S50000x96 bcast_S_S50000x96 r c).trans ?_
  have e0 : (fun k : Fin 96 => val_main_v32 (F := Ideal) x3 (ix2 k c)) = fun k => x3 (ix3 (0 : Fin 3) k c) :=
    funext fun k => hostSlab_apply (M := 3) (K := 96) (B := 96) x3 0 ![0, 0, 0] rfl rfl rfl slices_S3x96x96_S1x96x96_0_0_0 shapeCasts_S1x96x96_S96x96 k c
  have e1 : (fun k : Fin 96 => val_main_v51 (F := Ideal) x3 (ix2 k c)) = fun k => x3 (ix3 (1 : Fin 3) k c) :=
    funext fun k => hostSlab_apply (M := 3) (K := 96) (B := 96) x3 1 ![1, 0, 0] rfl rfl rfl slices_S3x96x96_S1x96x96_1_0_0 shapeCasts_S1x96x96_S96x96 k c
  have e2 : (fun k : Fin 96 => val_main_v74 (F := Ideal) x3 (ix2 k c)) = fun k => x3 (ix3 (2 : Fin 3) k c) :=
    funext fun k => hostSlab_apply (M := 3) (K := 96) (B := 96) x3 2 ![2, 0, 0] rfl rfl rfl slices_S3x96x96_S1x96x96_2_0_0 shapeCasts_S1x96x96_S96x96 k c
  rw [e0, e1, e2]
  rfl

/-- The second layer: the same stage of (h1, P h1, P (P h1)) against W2 and b2. -/
theorem v130_eq (x0 : (⟨S50000x96, .f32⟩ : BufTy).Contents (Elt Ideal)) (x1 : (⟨S2x800000, .i32⟩ : BufTy).Contents (Elt Ideal)) (x2 : (⟨S800000, .f32⟩ : BufTy).Contents (Elt Ideal)) (x3 : (⟨S3x96x96, .f32⟩ : BufTy).Contents (Elt Ideal)) (x4 : (⟨S96, .f32⟩ : BufTy).Contents (Elt Ideal)) (x5 : (⟨S3x96x96, .f32⟩ : BufTy).Contents (Elt Ideal)) (x6 : (⟨S96, .f32⟩ : BufTy).Contents (Elt Ideal)) :
    val_main_v130 (F := Ideal) x0 x1 x2 x3 x4 x5 x6
      = chebLayer (A := 50000) (K := 96) (B := 96) (val_main_v80 (F := Ideal) x0 x1 x2 x3 x4) (val_main_v99 (F := Ideal) x0 x1 x2 x3 x4)
          (val_main_v119 (F := Ideal) x0 x1 x2 x3 x4) x5 (fun c => x6 (ix1 c)) := by
  funext i
  obtain ⟨r, c, rfl⟩ : ∃ (r : Fin 50000) (c : Fin 96), i = ix2 r c := ⟨i 0, i 1, eq_ix2 i⟩
  refine (hostCheb_apply (A := 50000) (K := 96) (B := 96) dot_S50000x96_S96x96_S50000x96_1_0_0_1_n_n rfl rfl rfl rfl rfl rfl
    (val_main_v80 (F := Ideal) x0 x1 x2 x3 x4) (val_main_v99 (F := Ideal) x0 x1 x2 x3 x4) (val_main_v119 (F := Ideal) x0 x1 x2 x3 x4)
    (val_main_v82 (F := Ideal) x5) (val_main_v101 (F := Ideal) x5) (val_main_v124 (F := Ideal) x5) x6
    bcast_S96_S1x96_1 bcast_S1x96_S50000x96_0_1 bcast_S_S50000x96 bcast_S_S50000x96 r c).trans ?_
  have e0 : (fun k : Fin 96 => val_main_v82 (F := Ideal) x5 (ix2 k c)) = fun k => x5 (ix3 (0 : Fin 3) k c) :=
    funext fun k => hostSlab_apply (M := 3) (K := 96) (B := 96) x5 0 ![0, 0, 0] rfl rfl rfl slices_S3x96x96_S1x96x96_0_0_0 shapeCasts_S1x96x96_S96x96 k c
  have e1 : (fun k : Fin 96 => val_main_v101 (F := Ideal) x5 (ix2 k c)) = fun k => x5 (ix3 (1 : Fin 3) k c) :=
    funext fun k => hostSlab_apply (M := 3) (K := 96) (B := 96) x5 1 ![1, 0, 0] rfl rfl rfl slices_S3x96x96_S1x96x96_1_0_0 shapeCasts_S1x96x96_S96x96 k c
  have e2 : (fun k : Fin 96 => val_main_v124 (F := Ideal) x5 (ix2 k c)) = fun k => x5 (ix3 (2 : Fin 3) k c) :=
    funext fun k => hostSlab_apply (M := 3) (K := 96) (B := 96) x5 2 ![2, 0, 0] rfl rfl rfl slices_S3x96x96_S1x96x96_2_0_0 shapeCasts_S1x96x96_S96x96 k c
  rw [e0, e1, e2]
  rfl

/-- The result: the linear head of the second layer's output. -/
theorem v134_eq (x0 : (⟨S50000x96, .f32⟩ : BufTy).Contents (Elt Ideal)) (x1 : (⟨S2x800000, .i32⟩ : BufTy).Contents (Elt Ideal)) (x2 : (⟨S800000, .f32⟩ : BufTy).Contents (Elt Ideal)) (x3 : (⟨S3x96x96, .f32⟩ : BufTy).Contents (Elt Ideal)) (x4 : (⟨S96, .f32⟩ : BufTy).Contents (Elt Ideal)) (x5 : (⟨S3x96x96, .f32⟩ : BufTy).Contents (Elt Ideal)) (x6 : (⟨S96, .f32⟩ : BufTy).Contents (Elt Ideal)) (x7 : (⟨S96x2, .f32⟩ : BufTy).Contents (Elt Ideal)) (x8 : (⟨S2, .f32⟩ : BufTy).Contents (Elt Ideal)) :
    val_main_v134 (F := Ideal) x0 x1 x2 x3 x4 x5 x6 x7 x8
      = headLayer (A := 50000) (K := 96) (B := 2) (val_main_v130 (F := Ideal) x0 x1 x2 x3 x4 x5 x6) x7 (fun c => x8 (ix1 c)) := by
  funext i
  obtain ⟨r, c, rfl⟩ : ∃ (r : Fin 50000) (c : Fin 2), i = ix2 r c := ⟨i 0, i 1, eq_ix2 i⟩
  exact hostHead_apply (A := 50000) (K := 96) (B := 2) dot_S50000x96_S96x2_S50000x2_1_0_0_1_n_n rfl rfl rfl rfl rfl rfl
    (val_main_v130 (F := Ideal) x0 x1 x2 x3 x4 x5 x6) x7 x8 bcast_S2_S1x2_1 bcast_S1x2_S50000x2_0_1 r c

end Cert.ReferenceIdeal.RefStages

end
-- ==== Proof.Boundary.lean ====
/-
  The kernel program's buffers at the boundaries of its regions, read back to the launch memory.

  Before the first region the host computes, from the edge list and the edge weights, the normalised edge weights,
  and from the node features x their propagation P x and P (P x); the first region's output h1 is then the Chebyshev
  stage of (x, P x, P (P x)).  Between the regions the host propagates h1 the same way, twice.  Each host stretch is
  the reference's own composition of operations, so each boundary array IS the reference's stage of the launch
  arguments: the first region's output the reference's first layer, the second region's operands its propagations,
  and the program's result the reference's result.
-/
import proofs.«146737_j35888746725726_2_alg».proof.Proof.Gen.KernelIdeal.Frame
import proofs.«146737_j35888746725726_2_alg».proof.Proof.Layer1
import proofs.«146737_j35888746725726_2_alg».proof.Proof.Layer2
import proofs.«146737_j35888746725726_2_alg».proof.Proof.RefStages
import Idealize.ShloMosaic.Lib.StableHlo.Run

set_option maxRecDepth 16384

noncomputable section

namespace Cert.KernelIdeal.Boundary

open Cert.KernelIdeal Cert.KernelIdeal.Gen Idealize.ShloMosaic Idealize.ShloMosaic.TcCoe Idealize.ShloMosaic.ValueIdx
open Idealize.SL.Sem Idealize.ShloMosaic.StableHlo Cert.Lib.ChebDense
open Cert.ReferenceIdeal.Read (val_main_v1 val_main_v3 val_main_v30 val_main_v49 val_main_v69 val_main_v80 val_main_v99 val_main_v119
  val_main_v130 val_main_v134)
open Cert.ReferenceIdeal.RefStages (prop)

variable (m : (ℓ : Loc nD τ sig) → Buf (Elt Ideal) ℓ) (ρ : Dev nD → PrngReg) (c : Dev nD)

/-- The launch arguments, as the reference's stages take them. -/
abbrev X0 : (⟨Cert.ReferenceIdeal.S50000x96, .f32⟩ : BufTy).Contents (Elt Ideal) := m ((c : Thread nD τ).loc main_arg0)
abbrev X1 : (⟨Cert.ReferenceIdeal.S2x800000, .i32⟩ : BufTy).Contents (Elt Ideal) := m ((c : Thread nD τ).loc main_arg1)
abbrev X2 : (⟨Cert.ReferenceIdeal.S800000, .f32⟩ : BufTy).Contents (Elt Ideal) := m ((c : Thread nD τ).loc main_arg2)
abbrev X3 : (⟨Cert.ReferenceIdeal.S3x96x96, .f32⟩ : BufTy).Contents (Elt Ideal) := m ((c : Thread nD τ).loc main_arg3)
abbrev X4 : (⟨Cert.ReferenceIdeal.S96, .f32⟩ : BufTy).Contents (Elt Ideal) := m ((c : Thread nD τ).loc main_arg4)
abbrev X5 : (⟨Cert.ReferenceIdeal.S3x96x96, .f32⟩ : BufTy).Contents (Elt Ideal) := m ((c : Thread nD τ).loc main_arg5)
abbrev X6 : (⟨Cert.ReferenceIdeal.S96, .f32⟩ : BufTy).Contents (Elt Ideal) := m ((c : Thread nD τ).loc main_arg6)
abbrev X7 : (⟨Cert.ReferenceIdeal.S96x2, .f32⟩ : BufTy).Contents (Elt Ideal) := m ((c : Thread nD τ).loc main_arg7)
abbrev X8 : (⟨Cert.ReferenceIdeal.S2, .f32⟩ : BufTy).Contents (Elt Ideal) := m ((c : Thread nD τ).loc main_arg8)

/-! ## After the first host stretch (the edge list's rows, the weighted degrees) -/

theorem W1_v8 : W1 m ρ c (Proc.devRef .tc main_v8) = Cert.ReferenceIdeal.Read.val_main_v8 (F := Ideal) (X1 m c) (X2 m c) := by
  show StableHlo.after hostOps0 (W0 m ρ c) (Proc.devRef .tc main_v8) = _
  after_results_simp
  rfl

theorem W1_v11 : W1 m ρ c (Proc.devRef .tc main_v11) = Cert.ReferenceIdeal.Read.val_main_v11 (F := Ideal) (X1 m c) (X2 m c) := by
  show StableHlo.after hostOps0 (W0 m ρ c) (Proc.devRef .tc main_v11) = _
  after_results_simp
  rfl

theorem W1_cst_2 : W1 m ρ c (Proc.devRef .tc main_cst_2) = Cert.ReferenceIdeal.Read.val_main_cst_2 (F := Ideal) := by
  show StableHlo.after hostOps0 (W0 m ρ c) (Proc.devRef .tc main_cst_2) = _
  after_results_simp
  rfl

/-! ## After the second host stretch (the guarded inverse square roots of the degrees) -/

/-- The three operations of the guard: the selection between the inverse square roots and a broadcast zero. -/
theorem where_eq (V1 : Valuation τ sig (Elt Ideal)) : StableHlo.after hostOps0_1 V1 (Proc.devRef .tc main_v12)
    = select (V1 (Proc.devRef .tc main_v8)) (V1 (Proc.devRef .tc main_v11))
        (broadcastInDim S50000 ![] bcast_S_S50000 (V1 (Proc.devRef .tc main_cst_2))) := by
  after_results_simp
  rfl

/-- The guarded inverse square roots of the weighted degrees. -/
theorem W2_v12 : W2 m ρ c (Proc.devRef .tc main_v12) = Cert.ReferenceIdeal.Read.val_main_v12 (F := Ideal) (X1 m c) (X2 m c) := by
  refine (where_eq (W1 m ρ c)).trans ?_
  rw [W1_v8, W1_v11, W1_cst_2]
  rfl

/-- The edges' sources. -/
theorem W2_v1 : W2 m ρ c (Proc.devRef .tc main_v1) = val_main_v1 (F := Ideal) (X1 m c) := by
  show StableHlo.after hostOps0_1 (StableHlo.after hostOps0 (W0 m ρ c)) (Proc.devRef .tc main_v1) = _
  after_results_simp
  rfl

/-- The edges' destinations. -/
theorem W2_v3 : W2 m ρ c (Proc.devRef .tc main_v3) = val_main_v3 (F := Ideal) (X1 m c) := by
  show StableHlo.after hostOps0_1 (StableHlo.after hostOps0 (W0 m ρ c)) (Proc.devRef .tc main_v3) = _
  after_results_simp
  rfl

theorem W2_arg0 : W2 m ρ c (Proc.devRef .tc main_arg0) = X0 m c := by
  show StableHlo.after hostOps0_1 (StableHlo.after hostOps0 (W0 m ρ c)) (Proc.devRef .tc main_arg0) = _
  after_results_simp

theorem W2_arg2 : W2 m ρ c (Proc.devRef .tc main_arg2) = X2 m c := by
  show StableHlo.after hostOps0_1 (StableHlo.after hostOps0 (W0 m ρ c)) (Proc.devRef .tc main_arg2) = _
  after_results_simp

/-! ## At the first region's entry -/

theorem W3_arg0 : W3 m ρ c (Proc.devRef .tc main_arg0) = X0 m c := by
  show StableHlo.after hostOps0_2 (StableHlo.after hostOps0_1 (StableHlo.after hostOps0 (W0 m ρ c))) (Proc.devRef .tc main_arg0) = _
  after_results_simp

theorem W3_arg3 : W3 m ρ c (Proc.devRef .tc main_arg3) = X3 m c := by
  show StableHlo.after hostOps0_2 (StableHlo.after hostOps0_1 (StableHlo.after hostOps0 (W0 m ρ c))) (Proc.devRef .tc main_arg3) = _
  after_results_simp

theorem W3_arg5 : W3 m ρ c (Proc.devRef .tc main_arg5) = X5 m c := by
  show StableHlo.after hostOps0_2 (StableHlo.after hostOps0_1 (StableHlo.after hostOps0 (W0 m ρ c))) (Proc.devRef .tc main_arg5) = _
  after_results_simp

theorem W3_arg6 : W3 m ρ c (Proc.devRef .tc main_arg6) = X6 m c := by
  show StableHlo.after hostOps0_2 (StableHlo.after hostOps0_1 (StableHlo.after hostOps0 (W0 m ρ c))) (Proc.devRef .tc main_arg6) = _
  after_results_simp

theorem W3_arg7 : W3 m ρ c (Proc.devRef .tc main_arg7) = X7 m c := by
  show StableHlo.after hostOps0_2 (StableHlo.after hostOps0_1 (StableHlo.after hostOps0 (W0 m ρ c))) (Proc.devRef .tc main_arg7) = _
  after_results_simp

theorem W3_arg8 : W3 m ρ c (Proc.devRef .tc main_arg8) = X8 m c := by
  show StableHlo.after hostOps0_2 (StableHlo.after hostOps0_1 (StableHlo.after hostOps0 (W0 m ρ c))) (Proc.devRef .tc main_arg8) = _
  after_results_simp

/-- The edges' sources. -/
theorem W3_v1 : W3 m ρ c (Proc.devRef .tc main_v1) = val_main_v1 (F := Ideal) (X1 m c) := by
  show StableHlo.after hostOps0_2 (StableHlo.after hostOps0_1 (StableHlo.after hostOps0 (W0 m ρ c))) (Proc.devRef .tc main_v1) = _
  after_results_simp
  rfl

/-- The edges' destinations. -/
theorem W3_v3 : W3 m ρ c (Proc.devRef .tc main_v3) = val_main_v3 (F := Ideal) (X1 m c) := by
  show StableHlo.after hostOps0_2 (StableHlo.after hostOps0_1 (StableHlo.after hostOps0 (W0 m ρ c))) (Proc.devRef .tc main_v3) = _
  after_results_simp
  rfl

/-- The normalised edge weights. -/
theorem W3_v30 : W3 m ρ c (Proc.devRef .tc main_v30) = val_main_v30 (F := Ideal) (X1 m c) (X2 m c) := by
  have h12 := W2_v12 m ρ c
  have h1 := W2_v1 m ρ c
  have h3 := W2_v3 m ρ c
  have ha0 := W2_arg0 m ρ c
  have ha2 := W2_arg2 m ρ c
  show StableHlo.after hostOps0_2 (W2 m ρ c) (Proc.devRef .tc main_v30) = _
  generalize W2 m ρ c = V2 at h12 h1 h3 ha0 ha2 ⊢
  after_results_simp
  rw [h12, h1, h3, ha2]
  rfl

/-- The features' propagation P x. -/
theorem W3_v46 : W3 m ρ c (Proc.devRef .tc main_v46) = val_main_v49 (F := Ideal) (X0 m c) (X1 m c) (X2 m c) := by
  have h12 := W2_v12 m ρ c
  have h1 := W2_v1 m ρ c
  have h3 := W2_v3 m ρ c
  have ha0 := W2_arg0 m ρ c
  have ha2 := W2_arg2 m ρ c
  show StableHlo.after hostOps0_2 (W2 m ρ c) (Proc.devRef .tc main_v46) = _
  generalize W2 m ρ c = V2 at h12 h1 h3 ha0 ha2 ⊢
  after_results_simp
  rw [h12, h1, h3, ha0, ha2]
  rfl

/-- The second propagation P (P x). -/
theorem W3_v62 : W3 m ρ c (Proc.devRef .tc main_v62) = val_main_v69 (F := Ideal) (X0 m c) (X1 m c) (X2 m c) := by
  have h12 := W2_v12 m ρ c
  have h1 := W2_v1 m ρ c
  have h3 := W2_v3 m ρ c
  have ha0 := W2_arg0 m ρ c
  have ha2 := W2_arg2 m ρ c
  show StableHlo.after hostOps0_2 (W2 m ρ c) (Proc.devRef .tc main_v62) = _
  generalize W2 m ρ c = V2 at h12 h1 h3 ha0 ha2 ⊢
  after_results_simp
  rw [h12, h1, h3, ha0, ha2]
  rfl

/-- The first bias as a row. -/
theorem W3_v63 : W3 m ρ c (Proc.devRef .tc main_v63) = shapeCast S1x96 (m ((c : Thread nD τ).loc main_arg4)) shapeCasts_S96_S1x96 := by
  show StableHlo.after hostOps0_2 (StableHlo.after hostOps0_1 (StableHlo.after hostOps0 (W0 m ρ c))) (Proc.devRef .tc main_v63) = _
  after_results_simp
  rfl

/-- THE FIRST REGION'S OUTPUT is the reference's first layer. -/
theorem layer1_eq : Layer1.stage (V3 m ρ) c = val_main_v80 (F := Ideal) (X0 m c) (X1 m c) (X2 m c) (X3 m c) (X4 m c) := by
  rw [Cert.ReferenceIdeal.RefStages.v80_eq]
  show chebLayer (A := 50000) (K := 96) (B := 96) (W3 m ρ c (Proc.devRef .tc main_arg0)) (W3 m ρ c (Proc.devRef .tc main_v46))
      (W3 m ρ c (Proc.devRef .tc main_v62)) (W3 m ρ c (Proc.devRef .tc main_arg3))
      (fun j => W3 m ρ c (Proc.devRef .tc main_v63) (ix2 (0 : Fin 1) j)) = _
  rw [W3_arg0, W3_v46, W3_v62, W3_arg3, W3_v63]
  refine congrArg (chebLayer (A := 50000) (K := 96) (B := 96) (X0 m c) _ _ (X3 m c)) (funext fun j => ?_)
  exact shapeCast_a_1a_apply (a := 96) (m ((c : Thread nD τ).loc main_arg4)) shapeCasts_S96_S1x96 0 j

/-! ## At the first region's exit -/

theorem W4_v64 : W4 m ρ c (Proc.devRef .tc main_v64) = val_main_v80 (F := Ideal) (X0 m c) (X1 m c) (X2 m c) (X3 m c) (X4 m c) :=
  (W4_arr m ρ c 5).trans ((Layer1.final (V3 m ρ) c).trans (layer1_eq m ρ c))

theorem W4_v1 : W4 m ρ c (Proc.devRef .tc main_v1) = val_main_v1 (F := Ideal) (X1 m c) :=
  (W4_of_ne m ρ c main_v1 (by decide)).trans (W3_v1 m ρ c)
theorem W4_v3 : W4 m ρ c (Proc.devRef .tc main_v3) = val_main_v3 (F := Ideal) (X1 m c) :=
  (W4_of_ne m ρ c main_v3 (by decide)).trans (W3_v3 m ρ c)
theorem W4_v30 : W4 m ρ c (Proc.devRef .tc main_v30) = val_main_v30 (F := Ideal) (X1 m c) (X2 m c) :=
  (W4_of_ne m ρ c main_v30 (by decide)).trans (W3_v30 m ρ c)
theorem W4_arg5 : W4 m ρ c (Proc.devRef .tc main_arg5) = X5 m c :=
  (W4_of_ne m ρ c main_arg5 (by decide)).trans (W3_arg5 m ρ c)
theorem W4_arg6 : W4 m ρ c (Proc.devRef .tc main_arg6) = X6 m c :=
  (W4_of_ne m ρ c main_arg6 (by decide)).trans (W3_arg6 m ρ c)
theorem W4_arg7 : W4 m ρ c (Proc.devRef .tc main_arg7) = X7 m c :=
  (W4_of_ne m ρ c main_arg7 (by decide)).trans (W3_arg7 m ρ c)
theorem W4_arg8 : W4 m ρ c (Proc.devRef .tc main_arg8) = X8 m c :=
  (W4_of_ne m ρ c main_arg8 (by decide)).trans (W3_arg8 m ρ c)

/-! ## At the second region's entry -/

theorem W5_v64 : W5 m ρ c (Proc.devRef .tc main_v64) = val_main_v80 (F := Ideal) (X0 m c) (X1 m c) (X2 m c) (X3 m c) (X4 m c) := by
  refine Eq.trans ?_ (W4_v64 m ρ c)
  show StableHlo.after hostOps1 (W4 m ρ c) (Proc.devRef .tc main_v64) = _
  after_results_simp

theorem W5_arg5 : W5 m ρ c (Proc.devRef .tc main_arg5) = X5 m c := by
  refine Eq.trans ?_ (W4_arg5 m ρ c)
  show StableHlo.after hostOps1 (W4 m ρ c) (Proc.devRef .tc main_arg5) = _
  after_results_simp

theorem W5_arg7 : W5 m ρ c (Proc.devRef .tc main_arg7) = X7 m c := by
  refine Eq.trans ?_ (W4_arg7 m ρ c)
  show StableHlo.after hostOps1 (W4 m ρ c) (Proc.devRef .tc main_arg7) = _
  after_results_simp

/-- The second bias as a row. -/
theorem W5_v97 : W5 m ρ c (Proc.devRef .tc main_v97) = shapeCast S1x96 (m ((c : Thread nD τ).loc main_arg6)) shapeCasts_S96_S1x96 := by
  show StableHlo.after hostOps1 (W4 m ρ c) (Proc.devRef .tc main_v97) = _
  after_results_simp
  rw [W4_arg6]
  rfl

/-- The head's bias as a row. -/
theorem W5_v98 : W5 m ρ c (Proc.devRef .tc main_v98) = shapeCast S1x2 (m ((c : Thread nD τ).loc main_arg8)) shapeCasts_S2_S1x2 := by
  show StableHlo.after hostOps1 (W4 m ρ c) (Proc.devRef .tc main_v98) = _
  after_results_simp
  rw [W4_arg8]
  rfl

/-- The first layer's propagation P h1. -/
theorem W5_v80 : W5 m ρ c (Proc.devRef .tc main_v80)
    = val_main_v99 (F := Ideal) (X0 m c) (X1 m c) (X2 m c) (X3 m c) (X4 m c) := by
  rw [Cert.ReferenceIdeal.RefStages.v99_eq, ← W4_v64 m ρ c]
  show StableHlo.after hostOps1 (W4 m ρ c) (Proc.devRef .tc main_v80) = _
  after_results_simp
  rw [W4_v1, W4_v3, W4_v30]
  generalize W4 m ρ c (Proc.devRef .tc main_v64) = h
  rfl

/-- Its second propagation P (P h1). -/
theorem W5_v96 : W5 m ρ c (Proc.devRef .tc main_v96)
    = val_main_v119 (F := Ideal) (X0 m c) (X1 m c) (X2 m c) (X3 m c) (X4 m c) := by
  rw [Cert.ReferenceIdeal.RefStages.v119_eq, Cert.ReferenceIdeal.RefStages.v99_eq, ← W4_v64 m ρ c]
  show StableHlo.after hostOps1 (W4 m ρ c) (Proc.devRef .tc main_v96) = _
  after_results_simp
  rw [W4_v1, W4_v3, W4_v30]
  generalize W4 m ρ c (Proc.devRef .tc main_v64) = h
  rfl

/-- THE SECOND REGION'S OUTPUT is the reference's result. -/
theorem layer2_eq : Layer2.stage (V5 m ρ) c
    = val_main_v134 (F := Ideal) (X0 m c) (X1 m c) (X2 m c) (X3 m c) (X4 m c) (X5 m c) (X6 m c) (X7 m c) (X8 m c) := by
  rw [Cert.ReferenceIdeal.RefStages.v134_eq, Cert.ReferenceIdeal.RefStages.v130_eq]
  show headLayer (A := 50000) (K := 96) (B := 2)
      (chebLayer (A := 50000) (K := 96) (B := 96) (W5 m ρ c (Proc.devRef .tc main_v64)) (W5 m ρ c (Proc.devRef .tc main_v80))
        (W5 m ρ c (Proc.devRef .tc main_v96)) (W5 m ρ c (Proc.devRef .tc main_arg5))
        (fun j => W5 m ρ c (Proc.devRef .tc main_v97) (ix2 (0 : Fin 1) j)))
      (W5 m ρ c (Proc.devRef .tc main_arg7)) (fun j => W5 m ρ c (Proc.devRef .tc main_v98) (ix2 (0 : Fin 1) j)) = _
  rw [W5_v64, W5_v80, W5_v96, W5_arg5, W5_arg7, W5_v97, W5_v98]
  have eb : (fun j : Fin 96 => shapeCast S1x96 (m ((c : Thread nD τ).loc main_arg6)) shapeCasts_S96_S1x96 (ix2 (0 : Fin 1) j))
      = fun j => X6 m c (ix1 j) :=
    funext fun j => shapeCast_a_1a_apply (a := 96) (m ((c : Thread nD τ).loc main_arg6)) shapeCasts_S96_S1x96 0 j
  have el : (fun j : Fin 2 => shapeCast S1x2 (m ((c : Thread nD τ).loc main_arg8)) shapeCasts_S2_S1x2 (ix2 (0 : Fin 1) j))
      = fun j => X8 m c (ix1 j) :=
    funext fun j => shapeCast_a_1a_apply (a := 2) (m ((c : Thread nD τ).loc main_arg8)) shapeCasts_S2_S1x2 0 j
  rw [eb, el]

/-- THE PROGRAM'S RESULT at the last boundary is the reference's result term of the launch arguments. -/
theorem result_eq : W6 m ρ c (Proc.devRef .tc main_v99)
    = val_main_v134 (F := Ideal) (X0 m c) (X1 m c) (X2 m c) (X3 m c) (X4 m c) (X5 m c) (X6 m c) (X7 m c) (X8 m c) :=
  (W6_arr m ρ c 7).trans ((Layer2.final (V5 m ρ) c).trans (layer2_eq m ρ c))

end Cert.KernelIdeal.Boundary

end
-- ==== Proof.lean ====
/-
  The certificate of a two-layer Chebyshev graph convolution (order 3) with a linear head.

  Both programs compute, from node features x, an edge list, edge weights and the layers' parameters,

      h1  = relu (x·W1₀ + (P x)·W1₁ + (2·P (P x) − x)·W1₂ + b1)
      h2  = relu (h1·W2₀ + (P h1)·W2₁ + (2·P (P h1) − h1)·W2₂ + b2)
      out = h2·Wlin + blin

  where P is one propagation step of the scaled graph Laplacian (gather at the edges' sources, scale by the
  normalised edge weights, scatter-add at the edges' destinations).  The kernel program leaves P on the host and
  computes each layer in one pipelined region over ten blocks of 5000 rows, the head fused into the second; the
  reference is the same arithmetic on whole arrays.  On the extended reals a change of float format is the identity,
  a matmul into a zero accumulator is the dot product, the sums are taken in the same order and grouping on both
  sides, and the propagation steps are the same host operations: the two results are one function of the arguments,
  entry by entry, and no algebraic law — hence no finiteness — is needed.

  The frames of the two kernel programs and the reference's run are the generated ones; the ideal pass rewrote
  nothing, so the idealization is the program's own text read on the extended reals.
-/
import proofs.«146737_j35888746725726_2_alg».proof.Defs
import proofs.«146737_j35888746725726_2_alg».proof.Proof.Gen.Kernel
import proofs.«146737_j35888746725726_2_alg».proof.Proof.Gen.Kernel.Frame
import proofs.«146737_j35888746725726_2_alg».proof.Proof.Gen.KernelIdeal
import proofs.«146737_j35888746725726_2_alg».proof.Proof.Gen.KernelIdeal.Frame
import proofs.«146737_j35888746725726_2_alg».proof.Proof.Gen.ReferenceIdeal
import proofs.«146737_j35888746725726_2_alg».proof.Proof.Gen.ReferenceIdeal.Run
import proofs.«146737_j35888746725726_2_alg».proof.Proof.Gen.ReferenceIdeal.Read
import proofs.«146737_j35888746725726_2_alg».proof.Proof.Gen.Pre_finite_inputs
import proofs.«146737_j35888746725726_2_alg».proof.Proof.RunValue
import proofs.«146737_j35888746725726_2_alg».proof.Proof.Boundary

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the reference's result term of the arguments:
    the kernel program by its regions' arrays read back through the host stretches, the reference by its run. -/
theorem algebraic : Cert.algebraic_KernelIdeal_ReferenceIdeal := by
  intro m ρ m' ρ' _ hagree
  refine ⟨fun c => Cert.ReferenceIdeal.Read.val_main_v134 (F := Ideal) (Cert.KernelIdeal.Boundary.X0 m c) (Cert.KernelIdeal.Boundary.X1 m c)
    (Cert.KernelIdeal.Boundary.X2 m c) (Cert.KernelIdeal.Boundary.X3 m c) (Cert.KernelIdeal.Boundary.X4 m c) (Cert.KernelIdeal.Boundary.X5 m c)
    (Cert.KernelIdeal.Boundary.X6 m c) (Cert.KernelIdeal.Boundary.X7 m c) (Cert.KernelIdeal.Boundary.X8 m c), ?_, ?_⟩
  · exact (θ_run Cert.KernelIdeal.defs _ _).mono
      (fun r h c => ⟨(h c).1.trans (Cert.KernelIdeal.Boundary.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v134_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
